-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v14)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v14) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v28) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x8192x3 : Shape := ⟨3, ![4, 8192, 3]⟩
abbrev S_ : Shape := ⟨0, ![]⟩

class Facts : Prop where
  bcast_S_S4x8192x3 : S_.BroadcastsInDim S4x8192x3 (![] : Fin 0 → Fin S4x8192x3.rank)
  reducesTo_S4x8192x3_S_d0_1_2 : S4x8192x3.ReducesTo [0, 1, 2] S_
  h_S_ : 0 < S_.numel

variable [Facts]

def fn {F : FTy → Type} [FloatOps F] (main_arg0 : FVec F S4x8192x3 .f32) (main_arg1 : FVec F S4x8192x3 .f32) : IVec S_ 1 :=
  let main_v0 : FVec F S4x8192x3 .f32 := Host.absf main_arg0
  let main_cst : FVec F S_ .f32 := constant S_ .f32 0x7F800000#32
  let main_v1 : FVec F S4x8192x3 .f32 := broadcastInDim S4x8192x3 ![] bcast_S_S4x8192x3 main_cst
  let main_v2 : IVec S4x8192x3 1 := cmpf .olt main_v0 main_v1
  let main_c : IVec S_ 1 := constantI S_ 1 1#1
  let main_v3 : IVec S_ 1 := (fun x v => Host.reduce IntOp.andi x v reducesTo_S4x8192x3_S_d0_1_2 h_S_) main_v2 main_c
  let main_v4 : FVec F S4x8192x3 .f32 := Host.absf main_arg1
  let main_cst_0 : FVec F S_ .f32 := constant S_ .f32 0x7F800000#32
  let main_v5 : FVec F S4x8192x3 .f32 := broadcastInDim S4x8192x3 ![] bcast_S_S4x8192x3 main_cst_0
  let main_v6 : IVec S4x8192x3 1 := cmpf .olt main_v4 main_v5
  let main_c_1 : IVec S_ 1 := constantI S_ 1 1#1
  let main_v7 : IVec S_ 1 := (fun x v => Host.reduce IntOp.andi x v reducesTo_S4x8192x3_S_d0_1_2 h_S_) main_v6 main_c_1
  let main_v8 : IVec S_ 1 := andi main_v3 main_v7
  main_v8
-- ==== Kernel.lean ====
abbrev S4x8192x3 : Shape := ⟨3, ![4, 8192, 3]⟩
abbrev S4x3x8192 : Shape := ⟨3, ![4, 3, 8192]⟩
abbrev S4x8192 : Shape := ⟨2, ![4, 8192]⟩
abbrev S2x4x8192 : Shape := ⟨3, ![2, 4, 8192]⟩
abbrev S4x512x3 : Shape := ⟨3, ![4, 512, 3]⟩
abbrev S4x512 : Shape := ⟨2, ![4, 512]⟩
abbrev S1x4x8192 : Shape := ⟨3, ![1, 4, 8192]⟩
abbrev S4x512x1 : Shape := ⟨3, ![4, 512, 1]⟩
abbrev S4x512x512 : Shape := ⟨3, ![4, 512, 512]⟩
abbrev S4x3x512 : Shape := ⟨3, ![4, 3, 512]⟩
abbrev S4x1x512 : Shape := ⟨3, ![4, 1, 512]⟩
abbrev S_ : Shape := ⟨0, ![]⟩
abbrev S4 : Shape := ⟨1, ![4]⟩

abbrev nBuf : Space → Nat
  | .hbm => 28
  | .vmem => 8
  | .smem => 0
  | _ => 0

abbrev bufTy : (tb : Table) → Fin (tcTables nBuf tb) → BufTy
  | .hbm, ⟨0, _⟩ => ⟨S4x8192x3, .f32⟩
  | .hbm, ⟨1, _⟩ => ⟨S4x8192x3, .f32⟩
  | .hbm, ⟨2, _⟩ => ⟨S4x3x8192, .f32⟩
  | .hbm, ⟨3, _⟩ => ⟨S4x8192, .f32⟩
  | .hbm, ⟨4, _⟩ => ⟨S2x4x8192, .f32⟩
  | .hbm, ⟨5, _⟩ => ⟨S_, .f32⟩
  | .hbm, ⟨6, _⟩ => ⟨S4x8192, .f32⟩
  | .hbm, ⟨7, _⟩ => ⟨S_, .f32⟩
  | .hbm, ⟨8, _⟩ => ⟨S4, .f32⟩
  | .hbm, ⟨9, _⟩ => ⟨S_, .f32⟩
  | .hbm, ⟨10, _⟩ => ⟨S4, .f32⟩
  | .hbm, ⟨11, _⟩ => ⟨S4, .f32⟩
  | .hbm, ⟨12, _⟩ => ⟨S_, .f32⟩
  | .hbm, ⟨13, _⟩ => ⟨S_, .f32⟩
  | .hbm, ⟨14, _⟩ => ⟨S_, .f32⟩
  | .hbm, ⟨15, _⟩ => ⟨S_, .f32⟩
  | .hbm, ⟨16, _⟩ => ⟨S_, .f32⟩
  | .hbm, ⟨17, _⟩ => ⟨S4, .f32⟩
  | .hbm, ⟨18, _⟩ => ⟨S_, .f32⟩
  | .hbm, ⟨19, _⟩ => ⟨S4, .f32⟩
  | .hbm, ⟨20, _⟩ => ⟨S4, .f32⟩
  | .hbm, ⟨21, _⟩ => ⟨S_, .f32⟩
  | .hbm, ⟨22, _⟩ => ⟨S_, .f32⟩
  | .hbm, ⟨23, _⟩ => ⟨S_, .f32⟩
  | .hbm, ⟨24, _⟩ => ⟨S_, .f32⟩
  | .hbm, ⟨25, _⟩ => ⟨S_, .f32⟩
  | .hbm, ⟨26, _⟩ => ⟨S_, .f32⟩
  | .hbm, ⟨27, _⟩ => ⟨S_, .f32⟩
  | .local _ .vmem, ⟨0, _⟩ => ⟨S4x512x3, .f32⟩
  | .local _ .vmem, ⟨1, _⟩ => ⟨S4x512x3, .f32⟩
  | .local _ .vmem, ⟨2, _⟩ => ⟨S4x3x8192, .f32⟩
  | .local _ .vmem, ⟨3, _⟩ => ⟨S4x512, .f32⟩
  | .local _ .vmem, ⟨4, _⟩ => ⟨S4x512, .f32⟩
  | .local _ .vmem, ⟨5, _⟩ => ⟨S1x4x8192, .f32⟩
  | .local _ .vmem, ⟨6, _⟩ => ⟨S1x4x8192, .f32⟩
  | .local _ .vmem, ⟨7, _⟩ => ⟨S4x8192, .f32⟩
  | _, _ => ⟨S4x8192x3, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1_0 : Ref sig .tc := ⟨.hbm, 3, rfl⟩
abbrev main_v1_1 : Ref sig .tc := ⟨.hbm, 4, rfl⟩
abbrev main_cst : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_cst_1 : Ref sig .tc := ⟨.hbm, 9, rfl⟩
abbrev main_v4 : Ref sig .tc := ⟨.hbm, 10, rfl⟩
abbrev main_v5 : Ref sig .tc := ⟨.hbm, 11, rfl⟩
abbrev main_cst_2 : Ref sig .tc := ⟨.hbm, 12, rfl⟩
abbrev main_v6 : Ref sig .tc := ⟨.hbm, 13, rfl⟩
abbrev main_cst_3 : Ref sig .tc := ⟨.hbm, 14, rfl⟩
abbrev main_v7 : Ref sig .tc := ⟨.hbm, 15, rfl⟩
abbrev main_cst_4 : Ref sig .tc := ⟨.hbm, 16, rfl⟩
abbrev main_v8 : Ref sig .tc := ⟨.hbm, 17, rfl⟩
abbrev main_cst_5 : Ref sig .tc := ⟨.hbm, 18, rfl⟩
abbrev main_v9 : Ref sig .tc := ⟨.hbm, 19, rfl⟩
abbrev main_v10 : Ref sig .tc := ⟨.hbm, 20, rfl⟩
abbrev main_cst_6 : Ref sig .tc := ⟨.hbm, 21, rfl⟩
abbrev main_v11 : Ref sig .tc := ⟨.hbm, 22, rfl⟩
abbrev main_cst_7 : Ref sig .tc := ⟨.hbm, 23, rfl⟩
abbrev main_v12 : Ref sig .tc := ⟨.hbm, 24, rfl⟩
abbrev main_v13 : Ref sig .tc := ⟨.hbm, 25, rfl⟩
abbrev main_cst_8 : Ref sig .tc := ⟨.hbm, 26, rfl⟩
abbrev main_v14 : Ref sig .tc := ⟨.hbm, 27, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_scratch0 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![2, 8], ![false, false]⟩

@[reducible] def k0_t1_loop : Scf.Loop 32 :=
  let c0_i32_6 : BitVec 32 := 0#32
  let c16_i32 : BitVec 32 := 16#32
  let v11 : BitVec 32 := Scalar.addi c0_i32_6 c16_i32
  let c1_i32 : BitVec 32 := 1#32
  ⟨c0_i32_6, v11, c1_i32⟩
def k0_mult1 (k0_t1 : Fin k0_t1_loop.trips) : BitVec 32 :=
  let c0_i32_6 : BitVec 32 := 0#32
  let c1_i32 : BitVec 32 := 1#32
  let arg7 : BitVec 32 := Scf.iv c0_i32_6 c1_i32 k0_t1
  let c512_i32 : BitVec 32 := 512#32
  let v15 : BitVec 32 := Scalar.muli arg7 c512_i32
  v15
def k0_off1 (k0_t1 : Fin k0_t1_loop.trips) : Fin 3 → Nat :=
  let c0_9 : Index := 0#32
  let c0_10 : Index := 0#32
  let c0_i32_6 : BitVec 32 := 0#32
  let c1_i32 : BitVec 32 := 1#32
  let arg7 : BitVec 32 := Scf.iv c0_i32_6 c1_i32 k0_t1
  let c512_i32 : BitVec 32 := 512#32
  let v15 : BitVec 32 := Scalar.muli arg7 c512_i32
  let v16 : BitVec 32 := v15
  let v17 : Index := Scalar.indexCast v16
  ![0, 0, v17.toNat]
def k0_off2 (k0_t1 : Fin k0_t1_loop.trips) : Fin 2 → Nat :=
  let c0_19 : Index := 0#32
  let c0_i32_6 : BitVec 32 := 0#32
  let c1_i32 : BitVec 32 := 1#32
  let arg7 : BitVec 32 := Scf.iv c0_i32_6 c1_i32 k0_t1
  let c512_i32 : BitVec 32 := 512#32
  let v15 : BitVec 32 := Scalar.muli arg7 c512_i32
  let v16 : BitVec 32 := v15
  let v52 : Index := Scalar.indexCast v16
  ![0, v52.toNat]
def k0_cond2 (i : grid0.Coords) : BitVec 1 :=
  let arg1 : BitVec 32 := BitVec.ofNat 32 (i 1).val
  let c7_i32 : BitVec 32 := 7#32
  let v12 : BitVec 1 := Scalar.cmpi .eq arg1 c7_i32
  let v13 : BitVec 32 := Scalar.extui v12
  let c0_i32_8 : BitVec 32 := 0#32
  let v14 : BitVec 1 := Scalar.cmpi .ne v13 c0_i32_8
  v14

def cc0_transform_0 (i : grid0.Coords) : Fin 3 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  let c0_i32_1 : BitVec 32 := 0#32
  ![c0_i32.toNat, v1.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![c0_i32.toNat, v1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S4x512x3 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S4x3x8192 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S4x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x4x8192 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

class Facts₀ : Prop where
  transposes_S4x8192x3_S4x3x8192_0_2_1 : S4x8192x3.Transposes [0, 2, 1] S4x3x8192
  inb_S4x512x3_S4x512x3_0_0_0 : ∀ a, (![0, 0, 0] : Fin 3 → Nat) a + S4x512x3.size a ≤ S4x512x3.size a
  h_S4x512x3 : 0 < S4x512x3.numel
  reduces_S4x512x3_S4x512 : S4x512x3.Reduces [2] S4x512
  shapeCasts_S4x512_S4x512x1 : S4x512.ShapeCasts S4x512x1
  shapeCasts_S4x512x1_S4x512x1 : S4x512x1.ShapeCasts S4x512x1
  broadcasts_S4x512x1_S4x512x512 : S4x512x1.Broadcasts S4x512x512
  inb_S4x512_S4x512_0_0 : ∀ a, (![0, 0] : Fin 2 → Nat) a + S4x512.size a ≤ S4x512.size a
  h_S4x512 : 0 < S4x512.numel
  inb_S4x8192_S4x8192_0_0 : ∀ a, (![0, 0] : Fin 2 → Nat) a + S4x8192.size a ≤ S4x8192.size a
  h_S4x8192 : 0 < S4x8192.numel
  shapeCasts_S4x8192_S4x8192 : S4x8192.ShapeCasts S4x8192
  h_S4x3x512 : 0 < S4x3x512.numel
  shapeCasts_S4x3x512_S4x3x512 : S4x3x512.ShapeCasts S4x3x512
  reduces_S4x3x512_S4x512 : S4x3x512.Reduces [1] S4x512
  slices_S4x512x3_o0_0_0_S4x512x1 : S4x512x3.Slices ![0, 0, 0] S4x512x1
  slices_S4x3x512_o0_0_0_S4x1x512 : S4x3x512.Slices ![0, 0, 0] S4x1x512
  broadcasts_S4x1x512_S4x512x512 : S4x1x512.Broadcasts S4x512x512
  slices_S4x512x3_o0_0_1_S4x512x1 : S4x512x3.Slices ![0, 0, 1] S4x512x1
  slices_S4x3x512_o0_1_0_S4x1x512 : S4x3x512.Slices ![0, 1, 0] S4x1x512
  slices_S4x512x3_o0_0_2_S4x512x1 : S4x512x3.Slices ![0, 0, 2] S4x512x1
  slices_S4x3x512_o0_2_0_S4x1x512 : S4x3x512.Slices ![0, 2, 0] S4x1x512
  shapeCasts_S4x512_S4x1x512 : S4x512.ShapeCasts S4x1x512
  shapeCasts_S4x512_S4x512 : S4x512.ShapeCasts S4x512
  reduces_S4x512x512_S4x512 : S4x512x512.Reduces [2] S4x512
  reduces_S4x512x512_S4x512_2 : S4x512x512.Reduces [1] S4x512
  inb_S1x4x8192_S1x4x8192_0_0_0 : ∀ a, (![0, 0, 0] : Fin 3 → Nat) a + S1x4x8192.size a ≤ S1x4x8192.size a
  h_S1x4x8192 : 0 < S1x4x8192.numel
  shapeCasts_S1x4x8192_S4x8192 : S1x4x8192.ShapeCasts S4x8192
  shapeCasts_S4x8192_S1x4x8192 : S4x8192.ShapeCasts S1x4x8192
  reducesTo_S2x4x8192_S4x8192_d0 : S2x4x8192.ReducesTo [0] S4x8192
  h_S_ : 0 < S_.numel
  reducesTo_S4x8192_S4_d1 : S4x8192.ReducesTo [1] S4
  bcast_S_S4 : S_.BroadcastsInDim S4 (![] : Fin 0 → Fin S4.rank)
  reducesTo_S4_S_d0 : S4.ReducesTo [0] S_
  hrank0 : 0 < grid0.rank
  k0_t1_ok : k0_t1_loop.OK
  k0_mult1_dvd : ∀ k0_t1 : Fin k0_t1_loop.trips, 512 ∣ (k0_mult1 k0_t1).toNat
  k0_off1_inb : ∀ k0_t1 : Fin k0_t1_loop.trips, ∀ a, (k0_off1 k0_t1) a + S4x3x512.size a ≤ S4x3x8192.size a
  k0_off2_inb : ∀ k0_t1 : Fin k0_t1_loop.trips, ∀ a, (k0_off2 k0_t1) a + S4x512.size a ≤ S4x8192.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4x512x3.size a ≤ S4x8192x3.size a
  hwx0_0 : ∀ i : grid0.Coords, EltTy.bits .f32 = 32 ∨ (Rect.block (s := S4x8192x3) S4x512x3.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S4x3x8192.size a ≤ S4x3x8192.size a
  hwx0_1 : ∀ i : grid0.Coords, EltTy.bits .f32 = 32 ∨ (Rect.block (s := S4x3x8192) S4x3x8192.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S4x512.size a ≤ S4x8192.size a
  hwx0_2 : ∀ i : grid0.Coords, EltTy.bits .f32 = 32 ∨ (Rect.block (s := S4x8192) S4x512.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x4x8192.size a ≤ S2x4x8192.size a
  hwx0_3 : ∀ i : grid0.Coords, EltTy.bits .f32 = 32 ∨ (Rect.block (s := S2x4x8192) S1x4x8192.size (cc0_transform_3 i) (hinb0_3 i)).WholeWords (EltTy.packing .f32)

variable [Facts₀]

abbrev win0_0 : Pipeline.Window sig grid0 :=
  Pipeline.Window.ofSpec (Memref.whole main_arg0) S4x512x3.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S4x3x8192.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v1_0) S4x512.size cc0_transform_2 reads0_2 true false 2 stage0_2 sem0_2
    hrank0 hreads0_2 hinb0_2 nbuf0_2 (Memref.isWhole_whole _) hwx0_2 hstage0_2

abbrev win0_3 : Pipeline.Window sig grid0 :=
  Pipeline.Window.ofSpec (Memref.whole main_v1_1) S1x4x8192.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev idle0 : Fin 4 → grid0.Coords → Bool := fun | 0 => fun _ => false | 1 => fun _ => false | 2 => fun _ => false | 3 => fun i => !(k0_cond2 i == 1#1) | ⟨_ + 4, h⟩ => absurd h (Nat.not_lt.2 (Nat.le_add_left _ _))

class Facts : Prop extends Facts₀ where

variable [Facts]
-- ==== ReferenceIdeal.lean ====
abbrev S4x8192x3 : Shape := ⟨3, ![4, 8192, 3]⟩
abbrev S_ : Shape := ⟨0, ![]⟩
abbrev S4x8192 : Shape := ⟨2, ![4, 8192]⟩
abbrev S4x8192x8192 : Shape := ⟨3, ![4, 8192, 8192]⟩
abbrev S4x8192x1 : Shape := ⟨3, ![4, 8192, 1]⟩
abbrev S4x1x8192 : Shape := ⟨3, ![4, 1, 8192]⟩
abbrev S4 : Shape := ⟨1, ![4]⟩

abbrev nBuf : Space → Nat
  | .hbm => 46
  | .vmem => 0
  | .smem => 0
  | _ => 0

abbrev bufTy : (tb : Table) → Fin (tcTables nBuf tb) → BufTy
  | .hbm, ⟨0, _⟩ => ⟨S4x8192x3, .f32⟩
  | .hbm, ⟨1, _⟩ => ⟨S4x8192x3, .f32⟩
  | .hbm, ⟨2, _⟩ => ⟨S4x8192x3, .f32⟩
  | .hbm, ⟨3, _⟩ => ⟨S_, .f32⟩
  | .hbm, ⟨4, _⟩ => ⟨S4x8192, .f32⟩
  | .hbm, ⟨5, _⟩ => ⟨S4x8192x3, .f32⟩
  | .hbm, ⟨6, _⟩ => ⟨S_, .f32⟩
  | .hbm, ⟨7, _⟩ => ⟨S4x8192, .f32⟩
  | .hbm, ⟨8, _⟩ => ⟨S4x8192x8192, .f32⟩
  | .hbm, ⟨9, _⟩ => ⟨S4x8192x1, .f32⟩
  | .hbm, ⟨10, _⟩ => ⟨S4x1x8192, .f32⟩
  | .hbm, ⟨11, _⟩ => ⟨S4x8192x8192, .f32⟩
  | .hbm, ⟨12, _⟩ => ⟨S4x8192x8192, .f32⟩
  | .hbm, ⟨13, _⟩ => ⟨S4x8192x8192, .f32⟩
  | .hbm, ⟨14, _⟩ => ⟨S_, .f32⟩
  | .hbm, ⟨15, _⟩ => ⟨S4x8192x8192, .f32⟩
  | .hbm, ⟨16, _⟩ => ⟨S4x8192x8192, .f32⟩
  | .hbm, ⟨17, _⟩ => ⟨S4x8192x8192, .f32⟩
  | .hbm, ⟨18, _⟩ => ⟨S_, .f32⟩
  | .hbm, ⟨19, _⟩ => ⟨S4x8192x8192, .f32⟩
  | .hbm, ⟨20, _⟩ => ⟨S4x8192x8192, .f32⟩
  | .hbm, ⟨21, _⟩ => ⟨S_, .f32⟩
  | .hbm, ⟨22, _⟩ => ⟨S4x8192, .f32⟩
  | .hbm, ⟨23, _⟩ => ⟨S_, .f32⟩
  | .hbm, ⟨24, _⟩ => ⟨S4x8192, .f32⟩
  | .hbm, ⟨25, _⟩ => ⟨S_, .f32⟩
  | .hbm, ⟨26, _⟩ => ⟨S4, .f32⟩
  | .hbm, ⟨27, _⟩ => ⟨S_, .f32⟩
  | .hbm, ⟨28, _⟩ => ⟨S4, .f32⟩
  | .hbm, ⟨29, _⟩ => ⟨S4, .f32⟩
  | .hbm, ⟨30, _⟩ => ⟨S_, .f32⟩
  | .hbm, ⟨31, _⟩ => ⟨S_, .f32⟩
  | .hbm, ⟨32, _⟩ => ⟨S_, .f32⟩
  | .hbm, ⟨33, _⟩ => ⟨S_, .f32⟩
  | .hbm, ⟨34, _⟩ => ⟨S_, .f32⟩
  | .hbm, ⟨35, _⟩ => ⟨S4, .f32⟩
  | .hbm, ⟨36, _⟩ => ⟨S_, .f32⟩
  | .hbm, ⟨37, _⟩ => ⟨S4, .f32⟩
  | .hbm, ⟨38, _⟩ => ⟨S4, .f32⟩
  | .hbm, ⟨39, _⟩ => ⟨S_, .f32⟩
  | .hbm, ⟨40, _⟩ => ⟨S_, .f32⟩
  | .hbm, ⟨41, _⟩ => ⟨S_, .f32⟩
  | .hbm, ⟨42, _⟩ => ⟨S_, .f32⟩
  | .hbm, ⟨43, _⟩ => ⟨S_, .f32⟩
  | .hbm, ⟨44, _⟩ => ⟨S_, .f32⟩
  | .hbm, ⟨45, _⟩ => ⟨S_, .f32⟩
  | _, _ => ⟨S4x8192x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_cst_1 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_cst_2 : Ref sig .tc := ⟨.hbm, 18, rfl⟩
abbrev main_v13 : Ref sig .tc := ⟨.hbm, 19, rfl⟩
abbrev main_v14 : Ref sig .tc := ⟨.hbm, 20, rfl⟩
abbrev main_cst_3 : Ref sig .tc := ⟨.hbm, 21, rfl⟩
abbrev main_v15 : Ref sig .tc := ⟨.hbm, 22, rfl⟩
abbrev main_cst_4 : Ref sig .tc := ⟨.hbm, 23, rfl⟩
abbrev main_v16 : Ref sig .tc := ⟨.hbm, 24, rfl⟩
abbrev main_cst_5 : Ref sig .tc := ⟨.hbm, 25, rfl⟩
abbrev main_v17 : Ref sig .tc := ⟨.hbm, 26, rfl⟩
abbrev main_cst_6 : Ref sig .tc := ⟨.hbm, 27, rfl⟩
abbrev main_v18 : Ref sig .tc := ⟨.hbm, 28, rfl⟩
abbrev main_v19 : Ref sig .tc := ⟨.hbm, 29, rfl⟩
abbrev main_cst_7 : Ref sig .tc := ⟨.hbm, 30, rfl⟩
abbrev main_v20 : Ref sig .tc := ⟨.hbm, 31, rfl⟩
abbrev main_cst_8 : Ref sig .tc := ⟨.hbm, 32, rfl⟩
abbrev main_v21 : Ref sig .tc := ⟨.hbm, 33, rfl⟩
abbrev main_cst_9 : Ref sig .tc := ⟨.hbm, 34, rfl⟩
abbrev main_v22 : Ref sig .tc := ⟨.hbm, 35, rfl⟩
abbrev main_cst_10 : Ref sig .tc := ⟨.hbm, 36, rfl⟩
abbrev main_v23 : Ref sig .tc := ⟨.hbm, 37, rfl⟩
abbrev main_v24 : Ref sig .tc := ⟨.hbm, 38, rfl⟩
abbrev main_cst_11 : Ref sig .tc := ⟨.hbm, 39, rfl⟩
abbrev main_v25 : Ref sig .tc := ⟨.hbm, 40, rfl⟩
abbrev main_cst_12 : Ref sig .tc := ⟨.hbm, 41, rfl⟩
abbrev main_v26 : Ref sig .tc := ⟨.hbm, 42, rfl⟩
abbrev main_v27 : Ref sig .tc := ⟨.hbm, 43, rfl⟩
abbrev main_cst_13 : Ref sig .tc := ⟨.hbm, 44, rfl⟩
abbrev main_v28 : Ref sig .tc := ⟨.hbm, 45, rfl⟩

abbrev nD : Nat := 1
abbrev τ : Topo := Topo.v7x

variable {F : FTy → Type} [FloatOps F]

class Facts₀ : Prop where
  reducesTo_S4x8192x3_S4x8192_d2 : S4x8192x3.ReducesTo [2] S4x8192
  h_S_ : 0 < S_.numel
  bcast_S4x8192_S4x8192x1_0_1 : S4x8192.BroadcastsInDim S4x8192x1 (![0, 1] : Fin 2 → Fin S4x8192x1.rank)
  bcast_S4x8192_S4x1x8192_0_2 : S4x8192.BroadcastsInDim S4x1x8192 (![0, 2] : Fin 2 → Fin S4x1x8192.rank)
  bcast_S4x8192x1_S4x8192x8192_0_1_2 : S4x8192x1.BroadcastsInDim S4x8192x8192 (![0, 1, 2] : Fin 3 → Fin S4x8192x8192.rank)
  bcast_S4x1x8192_S4x8192x8192_0_1_2 : S4x1x8192.BroadcastsInDim S4x8192x8192 (![0, 1, 2] : Fin 3 → Fin S4x8192x8192.rank)
  bcast_S_S4x8192x8192 : S_.BroadcastsInDim S4x8192x8192 (![] : Fin 0 → Fin S4x8192x8192.rank)
  reducesTo_S4x8192x8192_S4x8192_d2 : S4x8192x8192.ReducesTo [2] S4x8192
  reducesTo_S4x8192x8192_S4x8192_d1 : S4x8192x8192.ReducesTo [1] S4x8192
  reducesTo_S4x8192_S4_d1 : S4x8192.ReducesTo [1] S4
  bcast_S_S4 : S_.BroadcastsInDim S4 (![] : Fin 0 → Fin S4.rank)
  reducesTo_S4_S_d0 : S4.ReducesTo [0] S_
  dot_S4x8192x3_S4x8192x3_S4x8192x8192_2_2_1_1_0_0_wf : DotDims.WF S4x8192x3 S4x8192x3 S4x8192x8192 [2] [2] [1] [1] [0] [0]

variable [Facts₀]

def dot_S4x8192x3_S4x8192x3_S4x8192x8192_2_2_1_1_0_0 : DotDims S4x8192x3 S4x8192x3 S4x8192x8192 where
  lhsContracting := [2]
  rhsContracting := [2]
  lhsNonContracting := [1]
  rhsNonContracting := [1]
  lhsBatch := [0]
  rhsBatch := [0]
  wf := dot_S4x8192x3_S4x8192x3_S4x8192x8192_2_2_1_1_0_0_wf

class Facts : Prop extends Facts₀ where

variable [Facts]
-- ==== Proof.Spec.lean ====
/-
  The squared-distance table of two point clouds and its row and column minima, as functions on the extended reals.

  For point arrays `P`, `T` of shape [4, 8192, 3] (batch, point, coordinate):
    sq A b n      = ∑_k A[b,n,k]²
    dotp P T b n m = ∑_k P[b,n,k] · T[b,m,k]
    d2 P T b n m  = max ((sq P b n + sq T b m) − 2 · dotp P T b n m) 0
  The two nearest-neighbour arrays are the minimum of `d2` over `m` (for each `b, n`) and over `n` (for each `b, m`),
  each taken together with the value of the word 0x7F800000. A minimum is carried by its lower bounds: `v` is the
  minimum of a family exactly when the numbers below `v` are the numbers below every member. Two values with the
  same lower bounds are equal, so a minimum taken tile by tile, chunk by chunk, or in one sweep is one number: no
  order of evaluation, and no finiteness of the entries, is involved.
-/
import Idealize.ShloMosaic.PureOps.Ideal
import Idealize.ShloMosaic.PureOps.Ideal.Laws
import Idealize.ShloMosaic.Lib.ValueIdx

noncomputable section

open scoped BigOperators

namespace Chamfer

open Idealize.ShloMosaic Idealize.ShloMosaic.ValueIdx

/-- A point array: batch × point × coordinate. -/
abbrev Pts : Type := (⟨3, ![4, 8192, 3]⟩ : Shape).Idx → EReal

/-- The value of the word the minima start from. -/
def top32 : EReal := Ideal.ofBits .f32 0x7F800000#32
/-- The value of the word that scales the inner product. -/
def two32 : EReal := Ideal.ofBits .f32 0x40000000#32
/-- The value of the word the distances are floored at. -/
def zero32 : EReal := Ideal.ofBits .f32 0x00000000#32

/-- The squared norm of point `n` of batch `b`. -/
def sq (A : Pts) (b : Fin 4) (n : Fin 8192) : EReal := ∑ k : Fin 3, A (ix3 b n k) * A (ix3 b n k)
/-- The inner product of point `n` of `P` and point `m` of `T` in batch `b`. -/
def dotp (P T : Pts) (b : Fin 4) (n m : Fin 8192) : EReal := ∑ k : Fin 3, P (ix3 b n k) * T (ix3 b m k)
/-- The floored squared distance between point `n` of `P` and point `m` of `T`. -/
def d2 (P T : Pts) (b : Fin 4) (n m : Fin 8192) : EReal :=
  max ((sq P b n + sq T b m) - two32 * dotp P T b n m) zero32

/-- `v` is the minimum of `top32` and the family `f`: its lower bounds are the common lower bounds. -/
def IsMin {ι : Type} (f : ι → EReal) (v : EReal) : Prop := ∀ c : EReal, c ≤ v ↔ c ≤ top32 ∧ ∀ i, c ≤ f i

/-- A family has one minimum. -/
theorem IsMin.unique {ι : Type} {f : ι → EReal} {v w : EReal} (hv : IsMin f v) (hw : IsMin f w) : v = w :=
  eq_of_forall_le_iff fun c => (hv c).trans (hw c).symm

/-- The fold of `min` from `top32` over a finite family is its minimum. -/
theorem isMin_fold {ι : Type} [Fintype ι] (f : ι → EReal) : IsMin f (Finset.univ.fold min top32 f) := fun c => by
  rw [Finset.le_fold_min]
  exact ⟨fun h => ⟨h.1, fun i => h.2 i (Finset.mem_univ i)⟩, fun h => ⟨h.1, fun i _ => h.2 i⟩⟩

/-- The same fold from any starting value `a` that is itself such a minimum of a family `g`: the minimum of both families. -/
theorem isMin_fold_from {ι κ : Type} [Fintype ι] (f : ι → EReal) (g : κ → EReal) (a : EReal) (ha : IsMin g a) :
    IsMin (Sum.elim g f) (Finset.univ.fold min a f) := fun c => by
  rw [Finset.le_fold_min, ha c]
  constructor
  · rintro ⟨⟨h0, hg⟩, hf⟩
    exact ⟨h0, fun i => match i with | .inl i => hg i | .inr i => hf i (Finset.mem_univ i)⟩
  · rintro ⟨h0, h⟩
    exact ⟨⟨h0, fun i => h (.inl i)⟩, fun i _ => h (.inr i)⟩

/-- The minimum of two minima is the minimum of both families. -/
theorem isMin_min {ι κ : Type} {f : ι → EReal} {g : κ → EReal} {v w : EReal} (hv : IsMin f v) (hw : IsMin g w) :
    IsMin (Sum.elim f g) (min v w) := fun c => by
  rw [le_min_iff, hv c, hw c]
  constructor
  · rintro ⟨⟨h0, hf⟩, ⟨_, hg⟩⟩
    exact ⟨h0, fun i => match i with | .inl i => hf i | .inr i => hg i⟩
  · rintro ⟨h0, h⟩
    exact ⟨⟨h0, fun i => h (.inl i)⟩, ⟨h0, fun i => h (.inr i)⟩⟩

/-- A minimum depends on the family only through the set of its members. -/
theorem IsMin.reindex {ι κ : Type} {f : ι → EReal} {g : κ → EReal} {v : EReal} (hv : IsMin f v)
    (h1 : ∀ i, ∃ j, g j = f i) (h2 : ∀ j, ∃ i, f i = g j) : IsMin g v := fun c => by
  rw [hv c]
  constructor
  · rintro ⟨h0, h⟩
    exact ⟨h0, fun j => by obtain ⟨i, hi⟩ := h2 j; rw [← hi]; exact h i⟩
  · rintro ⟨h0, h⟩
    exact ⟨h0, fun i => by obtain ⟨j, hj⟩ := h1 i; rw [← hj]; exact h j⟩

/-- `top32` is the minimum of the empty family. -/
theorem isMin_top : IsMin (fun e : Empty => e.elim) top32 := fun c =>
  ⟨fun h => ⟨h, fun e => e.elim⟩, fun h => h.1⟩

/-! ## Minima over part of a family -/

/-- `v` is the minimum of `top32` and those members `f i` whose index satisfies `p`. -/
def IsMinOn {ι : Type} (p : ι → Prop) (f : ι → EReal) (v : EReal) : Prop :=
  ∀ c : EReal, c ≤ v ↔ c ≤ top32 ∧ ∀ i, p i → c ≤ f i

/-- Over the whole index type it is the minimum of the family. -/
theorem IsMinOn.toIsMin {ι : Type} {f : ι → EReal} {v : EReal} (h : IsMinOn (fun _ => True) f v) : IsMin f v := fun c =>
  (h c).trans ⟨fun h => ⟨h.1, fun i => h.2 i trivial⟩, fun h => ⟨h.1, fun i _ => h.2 i⟩⟩

theorem IsMin.toIsMinOn {ι : Type} {f : ι → EReal} {v : EReal} (h : IsMin f v) : IsMinOn (fun _ => True) f v := fun c =>
  (h c).trans ⟨fun h => ⟨h.1, fun i _ => h.2 i⟩, fun h => ⟨h.1, fun i => h.2 i trivial⟩⟩

/-- The part matters only up to equivalence of the predicates. -/
theorem IsMinOn.congr {ι : Type} {p q : ι → Prop} {f : ι → EReal} {v : EReal} (hv : IsMinOn p f v) (h : ∀ i, p i ↔ q i) :
    IsMinOn q f v := fun c =>
  (hv c).trans ⟨fun hh => ⟨hh.1, fun i hq => hh.2 i ((h i).mpr hq)⟩, fun hh => ⟨hh.1, fun i hp => hh.2 i ((h i).mp hp)⟩⟩

/-- One part of a family has one minimum. -/
theorem IsMinOn.unique {ι : Type} {p : ι → Prop} {f : ι → EReal} {v w : EReal} (hv : IsMinOn p f v) (hw : IsMinOn p f w) :
    v = w := eq_of_forall_le_iff fun c => (hv c).trans (hw c).symm

/-- `top32` is the minimum over the empty part. -/
theorem isMinOn_top {ι : Type} (f : ι → EReal) : IsMinOn (fun _ => False) f top32 := fun c =>
  ⟨fun h => ⟨h, fun _ hf => hf.elim⟩, fun h => h.1⟩

/-- The minimum of the minima over two parts is the minimum over their union. -/
theorem IsMinOn.min {ι : Type} {p q : ι → Prop} {f : ι → EReal} {v w : EReal} (hv : IsMinOn p f v) (hw : IsMinOn q f w) :
    IsMinOn (fun i => p i ∨ q i) f (min v w) := fun c => by
  rw [le_min_iff, hv c, hw c]
  constructor
  · rintro ⟨⟨h0, hp⟩, ⟨_, hq⟩⟩
    exact ⟨h0, fun i hi => hi.elim (hp i) (hq i)⟩
  · rintro ⟨h0, h⟩
    exact ⟨⟨h0, fun i hi => h i (Or.inl hi)⟩, ⟨h0, fun i hi => h i (Or.inr hi)⟩⟩

/-- The fold of `min` from `top32` over members `g j = f (φ j)` is the minimum over the image of `φ`. -/
theorem isMinOn_fold {ι κ : Type} [Fintype κ] (f : ι → EReal) (g : κ → EReal) (φ : κ → ι) (h : ∀ j, g j = f (φ j)) :
    IsMinOn (fun i => ∃ j, φ j = i) f (Finset.univ.fold Min.min top32 g) := fun c => by
  rw [Finset.le_fold_min]
  constructor
  · rintro ⟨h0, hg⟩
    exact ⟨h0, fun i ⟨j, hj⟩ => by rw [← hj, ← h j]; exact hg j (Finset.mem_univ j)⟩
  · rintro ⟨h0, hf⟩
    exact ⟨h0, fun j _ => by rw [h j]; exact hf (φ j) ⟨j, rfl⟩⟩

/-- The fold of `min` from `top32` over minima of parts is the minimum over the union of the parts. -/
theorem isMinOn_fold_of {ι κ : Type} [Fintype κ] (f : ι → EReal) (g : κ → EReal) (P : κ → ι → Prop)
    (h : ∀ j, IsMinOn (P j) f (g j)) : IsMinOn (fun i => ∃ j, P j i) f (Finset.univ.fold Min.min top32 g) := fun c => by
  rw [Finset.le_fold_min]
  constructor
  · rintro ⟨h0, hg⟩
    exact ⟨h0, fun i ⟨j, hj⟩ => ((h j c).mp (hg j (Finset.mem_univ j))).2 i hj⟩
  · rintro ⟨h0, hf⟩
    exact ⟨h0, fun j _ => (h j c).mpr ⟨h0, fun i hi => hf i ⟨j, hi⟩⟩⟩

/-- The nearest-neighbour distance from point `n` of `P` into `T`, as one fold. -/
def nearX (P T : Pts) : (⟨2, ![4, 8192]⟩ : Shape).Idx → EReal :=
  fun j => Finset.univ.fold min top32 (fun m : Fin 8192 => d2 P T (j 0) (j 1) m)

/-- Row `r` of half `h`: point `4096 h + r`. -/
def halfRow (h : Fin 2) (r : Fin 4096) : Fin 8192 := ⟨4096 * h.val + r.val, by have := h.isLt; have := r.isLt; omega⟩

/-- The nearest-neighbour distance from point `m` of `T` into one half of `P`, as one fold. -/
def nearYHalf (P T : Pts) : (⟨3, ![2, 4, 8192]⟩ : Shape).Idx → EReal :=
  fun j => Finset.univ.fold min top32 (fun r : Fin 4096 => d2 P T (j 1) (halfRow (j 0) r) (j 2))

theorem isMin_nearX (P T : Pts) (b : Fin 4) (n : Fin 8192) :
    IsMin (fun m : Fin 8192 => d2 P T b n m) (nearX P T (ix2 b n)) := isMin_fold _

theorem isMin_nearYHalf (P T : Pts) (h : Fin 2) (b : Fin 4) (m : Fin 8192) :
    IsMin (fun r : Fin 4096 => d2 P T b (halfRow h r) m) (nearYHalf P T (ix3 h b m)) := isMin_fold _

end Chamfer

end
-- ==== Proof.RefRead.lean ====
/-
  The reference's run, read one operation at a time.

  The reference forms the table of floored squared distances between the points of two clouds,
  takes its minimum along each of the two point axes, and averages the two arrays of minima.
  Here the table is read at an index as the closed formula of the specification, each array of
  minima is shown to be the minimum of the corresponding row or column of that formula, and the
  averaging that follows is named as one function of the two arrays of minima.
-/
import proofs.«178793_j6528350290147_2_alg».proof.Defs
import proofs.«178793_j6528350290147_2_alg».proof.Proof.Gen.ReferenceIdeal.Read
import proofs.«178793_j6528350290147_2_alg».proof.Proof.Spec
import Idealize.ShloMosaic.Lib.ValueIdx
import Idealize.ShloMosaic.PureOps.Ideal.Laws
import Idealize.ShloMosaic.PureOps.Reduce

noncomputable section

namespace Cert.ReferenceIdeal.RefValue

open Cert.ReferenceIdeal Cert.ReferenceIdeal.Gen Cert.ReferenceIdeal.Read Idealize.ShloMosaic Idealize.ShloMosaic.ValueIdx

variable [Cert.ReferenceIdeal.Facts]

/-- The averaging after the two minima. For arrays `cx`, `cy` of shape [4, 8192]: sum each over its
    second axis and divide by the value of the word for 8192, sum the four quotients and divide by the
    value of the word for 4, add the two results, and multiply by the value of the word for 1. -/
def tail (cx cy : FVec Ideal S4x8192 .f32) : FVec Ideal S_ .f32 :=
  mulf (val_main_cst_13 (F := Ideal))
    (addf
      (Host.divf
        (Host.reduceAdd
          (Host.divf (Host.reduceAdd cx (val_main_cst_5 (F := Ideal)) reducesTo_S4x8192_S4_d1 h_S_) (val_main_v18 (F := Ideal)))
          (val_main_cst_7 (F := Ideal)) reducesTo_S4_S_d0 h_S_)
        (val_main_cst_8 (F := Ideal)))
      (Host.divf
        (Host.reduceAdd
          (Host.divf (Host.reduceAdd cy (val_main_cst_9 (F := Ideal)) reducesTo_S4x8192_S4_d1 h_S_) (val_main_v23 (F := Ideal)))
          (val_main_cst_11 (F := Ideal)) reducesTo_S4_S_d0 h_S_)
        (val_main_cst_12 (F := Ideal))))

/-- The reference's result is that averaging applied to its two arrays of minima. -/
theorem result_eq_tail (x0 x1 : (⟨S4x8192x3, .f32⟩ : BufTy).Contents (Elt Ideal)) :
    val_main_v28 (F := Ideal) x0 x1 = tail (val_main_v15 (F := Ideal) x0 x1) (val_main_v16 (F := Ideal) x0 x1) := by
  unfold tail val_main_v28 val_main_v27 val_main_v26 val_main_v25 val_main_v24 val_main_v22 val_main_v21 val_main_v20
    val_main_v19 val_main_v17
  rfl

/-- The distance table at batch `b`, points `n` and `m`: the sum of the two squared norms, less twice the
    inner product, floored at zero. -/
theorem d2_apply (x0 x1 : (⟨S4x8192x3, .f32⟩ : BufTy).Contents (Elt Ideal)) (b : Fin 4) (n m : Fin 8192) :
    val_main_v14 (F := Ideal) x0 x1 (ix3 b n m) = Chamfer.d2 x0 x1 b n m := by
  have eP : ∀ k : Fin 3, idx_main_v1 (idx_main_v5 (idx_main_v7 (ix3 b n m))) k = ix3 b n k := fun k =>
    funext fun a => Fin.ext (by match a with | ⟨0, _⟩ => rfl | ⟨1, _⟩ => rfl | ⟨2, _⟩ => rfl)
  have eT : ∀ k : Fin 3, idx_main_v3 (idx_main_v6 (idx_main_v8 (ix3 b n m))) k = ix3 b m k := fun k =>
    funext fun a => Fin.ext (by match a with | ⟨0, _⟩ => rfl | ⟨1, _⟩ => rfl | ⟨2, _⟩ => rfl)
  have eL : ∀ k : Fin 3, lidx_main_v4 (ix3 b n m) k = ix3 b n k := fun k =>
    funext fun a => Fin.ext (by match a with | ⟨0, _⟩ => rfl | ⟨1, _⟩ => rfl | ⟨2, _⟩ => rfl)
  have eR : ∀ k : Fin 3, ridx_main_v4 (ix3 b n m) k = ix3 b m k := fun k =>
    funext fun a => Fin.ext (by match a with | ⟨0, _⟩ => rfl | ⟨1, _⟩ => rfl | ⟨2, _⟩ => rfl)
  rw [val_main_v14_apply, val_main_v12_apply, val_main_v9_apply, val_main_v11_apply, val_main_v13_apply, val_main_v10_apply,
    val_main_v7_apply, val_main_v8_apply, val_main_v5_apply, val_main_v6_apply, val_main_v1_apply, val_main_v3_apply,
    val_main_v4_apply, val_main_cst_apply, val_main_cst_0_apply, val_main_cst_1_apply, val_main_cst_2_apply]
  simp only [val_main_v0_apply, val_main_v2_apply, eP, eT, eL, eR, Ideal.mulf_def, Ideal.addf_def, Ideal.subf_def,
    Ideal.maximumf_def, Ideal.ofBits_def, Ideal.ofBits_zero_f32, zero_add]
  unfold Chamfer.d2 Chamfer.sq Chamfer.dotp Chamfer.two32 Chamfer.zero32
  rw [Ideal.ofBits_zero_f32]

/-- The first array of minima at batch `b`, point `n`: the minimum over `m` of the distances from point
    `n` of the first cloud to the points `m` of the second. -/
theorem chamx_isMin (x0 x1 : (⟨S4x8192x3, .f32⟩ : BufTy).Contents (Elt Ideal)) (b : Fin 4) (n : Fin 8192) :
    Chamfer.IsMin (fun m : Fin 8192 => Chamfer.d2 x0 x1 b n m) (val_main_v15 (F := Ideal) x0 x1 (ix2 b n)) := by
  have hred : S4x8192x8192.Reduces [2] S4x8192 := by decide
  have hfam : (val_main_v14 (F := Ideal) x0 x1 ∘ hred.lift (ix2 b n)) = fun m : Fin 8192 => Chamfer.d2 x0 x1 b n m := by
    funext (k : Fin 8192)
    have e : hred.lift (ix2 b n) k = ix3 b n k :=
      funext fun a => Fin.ext (by match a with | ⟨0, _⟩ => rfl | ⟨1, _⟩ => rfl | ⟨2, _⟩ => rfl)
    show val_main_v14 (F := Ideal) x0 x1 (hred.lift (ix2 b n) k) = _
    rw [e, d2_apply]
  have hinit : val_main_cst_3 (F := Ideal) (Shape.Idx.first h_S_) = Chamfer.top32 := rfl
  unfold val_main_v15
  rw [Host.reduce_eq_fold_single FloatOps.minimumf _ _ reducesTo_S4x8192x8192_S4x8192_d2 hred h_S_ (ix2 b n), hfam, hinit]
  exact Chamfer.isMin_fold _

/-- The second array of minima at batch `b`, point `m`: the minimum over `n` of the distances from the
    points `n` of the first cloud to point `m` of the second. -/
theorem chamy_isMin (x0 x1 : (⟨S4x8192x3, .f32⟩ : BufTy).Contents (Elt Ideal)) (b : Fin 4) (m : Fin 8192) :
    Chamfer.IsMin (fun n : Fin 8192 => Chamfer.d2 x0 x1 b n m) (val_main_v16 (F := Ideal) x0 x1 (ix2 b m)) := by
  have hred : S4x8192x8192.Reduces [1] S4x8192 := by decide
  have hfam : (val_main_v14 (F := Ideal) x0 x1 ∘ hred.lift (ix2 b m)) = fun n : Fin 8192 => Chamfer.d2 x0 x1 b n m := by
    funext (k : Fin 8192)
    have e : hred.lift (ix2 b m) k = ix3 b k m :=
      funext fun a => Fin.ext (by match a with | ⟨0, _⟩ => rfl | ⟨1, _⟩ => rfl | ⟨2, _⟩ => rfl)
    show val_main_v14 (F := Ideal) x0 x1 (hred.lift (ix2 b m) k) = _
    rw [e, d2_apply]
  have hinit : val_main_cst_4 (F := Ideal) (Shape.Idx.first h_S_) = Chamfer.top32 := rfl
  unfold val_main_v16
  rw [Host.reduce_eq_fold_single FloatOps.minimumf _ _ reducesTo_S4x8192x8192_S4x8192_d1 hred h_S_ (ix2 b m), hfam, hinit]
  exact Chamfer.isMin_fold _

end Cert.ReferenceIdeal.RefValue

end
-- ==== Proof.LibMinAxis.lean ====
/-
  A minimum over one axis of a vector, read at a result index on the extended reals.
-/
import Idealize.ShloMosaic.PureOps.Ideal.Laws
import Idealize.ShloMosaic.PureOps.Reduce

namespace LibMinAxis

open Idealize.ShloMosaic

/-- A float `vector.multi_reduction <minimumf>` over ONE axis, read at the ideal values at a result index `j`: the fold of
    `min`, from the value of the accumulator's word, over the coordinates `k` of the reduced axis, of the source at `j`
    with `k` inserted on that axis (`Shape.Reduces.lift`). Any rank, axis and extents; `min` on the extended reals is
    commutative and associative, so the order of the fold does not matter. (The counterpart, for minima, of the
    one-axis reading of a maximum.) -/
theorem multiReduction_minimumf_single {φ : FTy} {s t : Shape} {a : Fin s.rank} (src : FVec Ideal s φ) (acc : BitVec φ.bits)
    (h : s.Reduces [a] t) (hφ : FKind.Formats φ) (hacc : acc = FKind.minimumf.neutral φ hφ) (j : t.Idx) :
    multiReduction .minimumf [a] t src acc h hφ hacc j
      = (Finset.univ : Finset (Fin (s.size a))).fold min (FloatOps.ofBits φ acc) (src ∘ h.lift j) := by
  rw [multiReduction_minimumf_eq_fold]
  exact h.fold_filter_drop_single _ _ src j

end LibMinAxis
-- ==== Proof.Pay.lean ====
/-
  The kernel body's arithmetic read at an index, on the extended reals.

  One grid point holds a block `x` of 512 points of the first cloud ([4, 512, 3]: batch, point, coordinate) and, per trip
  of its loop, a chunk `y` of 512 points of the second cloud stored coordinate-major ([4, 3, 512]). The body forms the
  [4, 512, 512] tile of floored squared distances
      tile x y b r j = max ((∑_k x[b,r,k]² + ∑_k y[b,k,j]²) − 2 · ((x[b,r,0]·y[b,0,j] + x[b,r,1]·y[b,1,j]) + x[b,r,2]·y[b,2,j])) 0
  and reduces it by `min` along `j` (into the running row minima) and along `r` (into the running column minima).
  The three products are added left to right; over the extended reals addition is associative, so this is the sum
  over the coordinate.
-/
import proofs.«178793_j6528350290147_2_alg».proof.Proof.Gen.KernelIdeal.Skeleton
import proofs.«178793_j6528350290147_2_alg».proof.Proof.Spec
import proofs.«178793_j6528350290147_2_alg».proof.Proof.LibMinAxis
import Idealize.ShloMosaic.Lib.ValueIdx
import Idealize.ShloMosaic.Lib.Pipeline.Value
import Idealize.ShloMosaic.PureOps.Ideal.Laws
import Idealize.ShloMosaic.PureOps.Reduce

noncomputable section

open scoped BigOperators

namespace Cert.KernelIdeal.Pay

open Cert.KernelIdeal Cert.KernelIdeal.Gen Idealize.ShloMosaic Idealize.ShloMosaic.ValueIdx Chamfer

/-- The squared norm of point `r` of the block. -/
def bsq (x : FVec Ideal S4x512x3 .f32) (b : Fin 4) (r : Fin 512) : EReal := ∑ k : Fin 3, x (ix3 b r k) * x (ix3 b r k)
/-- The squared norm of point `j` of the chunk. -/
def csq (y : FVec Ideal S4x3x512 .f32) (b : Fin 4) (j : Fin 512) : EReal := ∑ k : Fin 3, y (ix3 b k j) * y (ix3 b k j)
/-- The inner product of point `r` of the block and point `j` of the chunk. -/
def bdot (x : FVec Ideal S4x512x3 .f32) (y : FVec Ideal S4x3x512 .f32) (b : Fin 4) (r j : Fin 512) : EReal :=
  ∑ k : Fin 3, x (ix3 b r k) * y (ix3 b k j)
/-- The floored squared distance between them. -/
def tile (x : FVec Ideal S4x512x3 .f32) (y : FVec Ideal S4x3x512 .f32) (b : Fin 4) (r j : Fin 512) : EReal :=
  max ((bsq x b r + csq y b j) - two32 * bdot x y b r j) zero32

/-- A sum over one axis, with the neutral word's proof spelt as the body prints it. -/
theorem sum_axis {s t : Shape} {a : Fin s.rank} (src : FVec Ideal s .f32) (h : s.Reduces [a] t)
    (hφ : FKind.Formats .f32) (hacc : (0x00000000#32 : BitVec 32) = FKind.add.neutral .f32 hφ) (j : t.Idx) :
    multiReduction (F := Ideal) .add [a] t src 0x00000000#32 h hφ hacc j = ∑ k : Fin (s.size a), src (h.lift j k) :=
  Ideal.multiReduction_add_single src _ h hφ hacc j

/-- A minimum over one axis: the fold of `min` from the accumulator word's value over that axis's coordinates. -/
theorem min_axis {s t : Shape} {a : Fin s.rank} (src : FVec Ideal s .f32) (acc : BitVec 32) (h : s.Reduces [a] t)
    (hφ : FKind.Formats .f32) (hacc : acc = FKind.minimumf.neutral .f32 hφ) (j : t.Idx) :
    multiReduction (F := Ideal) .minimumf [a] t src acc h hφ hacc j
      = (Finset.univ : Finset (Fin (s.size a))).fold Min.min (Ideal.ofBits .f32 acc) (src ∘ h.lift j) :=
  LibMinAxis.multiReduction_minimumf_single src acc h hφ hacc j

/-- Inserting coordinate `k` on the last axis of (b, r). -/
theorem lift_coord (h : S4x512x3.Reduces [2] S4x512) (b : Fin 4) (r : Fin 512) (k : Fin 3) :
    h.lift (ix2 b r) k = ix3 b r k :=
  funext fun a => Fin.ext (by match a with | ⟨0, _⟩ => rfl | ⟨1, _⟩ => rfl | ⟨2, _⟩ => rfl)
/-- Inserting coordinate `k` on the middle axis of (b, j). -/
theorem lift_mid (h : S4x3x512.Reduces [1] S4x512) (b : Fin 4) (j : Fin 512) (k : Fin 3) :
    h.lift (ix2 b j) k = ix3 b k j :=
  funext fun a => Fin.ext (by match a with | ⟨0, _⟩ => rfl | ⟨1, _⟩ => rfl | ⟨2, _⟩ => rfl)
/-- Inserting chunk point `j` on the last axis of (b, r). -/
theorem lift_lane (h : S4x512x512.Reduces [2] S4x512) (b : Fin 4) (r j : Fin 512) :
    h.lift (ix2 b r) j = ix3 b r j :=
  funext fun a => Fin.ext (by match a with | ⟨0, _⟩ => rfl | ⟨1, _⟩ => rfl | ⟨2, _⟩ => rfl)
/-- Inserting block point `r` on the middle axis of (b, j). -/
theorem lift_row (h : S4x512x512.Reduces [1] S4x512) (b : Fin 4) (j r : Fin 512) :
    h.lift (ix2 b j) r = ix3 b r j :=
  funext fun a => Fin.ext (by match a with | ⟨0, _⟩ => rfl | ⟨1, _⟩ => rfl | ⟨2, _⟩ => rfl)

/-- The block's squared norms, broadcast along the chunk axis. -/
theorem pay1_apply (x : FVec Ideal S4x512x3 .f32) (b : Fin 4) (r j : Fin 512) :
    k0_pay1 (F := Ideal) x (ix3 b r j) = bsq x b r := by
  unfold k0_pay1
  dsimp only
  refine (broadcastTo_apply _ broadcasts_S4x512x1_S4x512x512 (ix3 b r j) (ix3 b r (0 : Fin 1)) (fun a => by
    match a with | ⟨0, _⟩ => rfl | ⟨1, _⟩ => rfl | ⟨2, _⟩ => rfl)).trans ?_
  rw [shapeCast_self]
  refine (shapeCast_apply _ shapeCasts_S4x512_S4x512x1 (ix3 b r (0 : Fin 1)) (ix2 b r) (by
    rw [Shape.rowMajor_val_two, Shape.rowMajor_val_three]; show b.val * 512 + r.val = (b.val * 512 + r.val) * 1 + 0; omega)).trans ?_
  refine (sum_axis _ reduces_S4x512x3_S4x512 _ _ (ix2 b r)).trans ?_
  exact Finset.sum_congr rfl fun k _ => congrArg (fun i => x i * x i) (lift_coord _ b r k)

/-- Coordinate `d` of the block's points, as a column broadcast along the chunk axis. -/
theorem colBcast (x : FVec Ideal S4x512x3 .f32) (off : Fin 3 → Nat) (h : S4x512x3.Slices off S4x512x1) (d : Fin 3)
    (hoff : off = ![0, 0, d.val]) (b : Fin 4) (r j : Fin 512) :
    broadcastTo S4x512x512 (extractStridedSlice S4x512x1 off x h) broadcasts_S4x512x1_S4x512x512 (ix3 b r j)
      = x (ix3 b r d) := by
  subst hoff
  refine (broadcastTo_apply _ broadcasts_S4x512x1_S4x512x512 (ix3 b r j) (ix3 b r (0 : Fin 1)) (fun a => by
    match a with | ⟨0, _⟩ => rfl | ⟨1, _⟩ => rfl | ⟨2, _⟩ => rfl)).trans ?_
  exact extractStridedSlice_apply _ x h (ix3 b r (0 : Fin 1)) (ix3 b r d) (fun a => by
    match a with
    | ⟨0, _⟩ => exact (Nat.zero_add _).symm
    | ⟨1, _⟩ => exact (Nat.zero_add _).symm
    | ⟨2, _⟩ => exact (Nat.add_zero _).symm)

/-- Coordinate `d` of the chunk's points, as a row broadcast along the block axis. -/
theorem rowBcast (y : FVec Ideal S4x3x512 .f32) (off : Fin 3 → Nat) (h : S4x3x512.Slices off S4x1x512) (d : Fin 3)
    (hoff : off = ![0, d.val, 0]) (b : Fin 4) (r j : Fin 512) :
    broadcastTo S4x512x512 (extractStridedSlice S4x1x512 off y h) broadcasts_S4x1x512_S4x512x512 (ix3 b r j)
      = y (ix3 b d j) := by
  subst hoff
  refine (broadcastTo_apply _ broadcasts_S4x1x512_S4x512x512 (ix3 b r j) (ix3 b (0 : Fin 1) j) (fun a => by
    match a with | ⟨0, _⟩ => rfl | ⟨1, _⟩ => rfl | ⟨2, _⟩ => rfl)).trans ?_
  exact extractStridedSlice_apply _ y h (ix3 b (0 : Fin 1) j) (ix3 b d j) (fun a => by
    match a with
    | ⟨0, _⟩ => exact (Nat.zero_add _).symm
    | ⟨1, _⟩ => exact (Nat.add_zero _).symm
    | ⟨2, _⟩ => exact (Nat.zero_add _).symm)

/-- The chunk's squared norms, as a row broadcast along the block axis. -/
theorem csqBcast (y : FVec Ideal S4x3x512 .f32) (b : Fin 4) (r j : Fin 512) :
    broadcastTo S4x512x512 (shapeCast S4x1x512
      (multiReduction (F := Ideal) .add [1] S4x512 (mulf y y) 0x00000000#32 reduces_S4x3x512_S4x512 (.inl rfl) rfl)
      shapeCasts_S4x512_S4x1x512) broadcasts_S4x1x512_S4x512x512 (ix3 b r j) = csq y b j := by
  refine (broadcastTo_apply _ broadcasts_S4x1x512_S4x512x512 (ix3 b r j) (ix3 b (0 : Fin 1) j) (fun a => by
    match a with | ⟨0, _⟩ => rfl | ⟨1, _⟩ => rfl | ⟨2, _⟩ => rfl)).trans ?_
  refine (shapeCast_apply _ shapeCasts_S4x512_S4x1x512 (ix3 b (0 : Fin 1) j) (ix2 b j) (by
    rw [Shape.rowMajor_val_two, Shape.rowMajor_val_three]; show b.val * 512 + j.val = (b.val * 1 + 0) * 512 + j.val; omega)).trans ?_
  refine (sum_axis _ reduces_S4x3x512_S4x512 _ _ (ix2 b j)).trans ?_
  exact Finset.sum_congr rfl fun k _ => congrArg (fun i => y i * y i) (lift_mid _ b j k)

/-- THE TILE: the body's distance term at (b, r, j) is the floored squared distance of block point `r` and chunk point `j`. -/
theorem pay6_apply (x : FVec Ideal S4x512x3 .f32) (y : FVec Ideal S4x3x512 .f32) (b : Fin 4) (r j : Fin 512) :
    k0_pay6 (F := Ideal) x (k0_pay1 (F := Ideal) x) y (ix3 b r j) = tile x y b r j := by
  unfold k0_pay6
  dsimp only
  rw [shapeCast_self]
  show max ((k0_pay1 (F := Ideal) x (ix3 b r j) + _) - (two32 * ((_ * _ + _ * _) + _ * _))) zero32 = _
  rw [pay1_apply, csqBcast, colBcast x ![0, 0, 0] slices_S4x512x3_o0_0_0_S4x512x1 0 rfl,
    colBcast x ![0, 0, 1] slices_S4x512x3_o0_0_1_S4x512x1 1 rfl, colBcast x ![0, 0, 2] slices_S4x512x3_o0_0_2_S4x512x1 2 rfl,
    rowBcast y ![0, 0, 0] slices_S4x3x512_o0_0_0_S4x1x512 0 rfl, rowBcast y ![0, 1, 0] slices_S4x3x512_o0_1_0_S4x1x512 1 rfl,
    rowBcast y ![0, 2, 0] slices_S4x3x512_o0_2_0_S4x1x512 2 rfl]
  unfold tile bdot
  rw [Fin.sum_univ_three]

/-- The running row minima after a trip: the minimum of what was there and the tile's minimum along the chunk. -/
theorem pay7_apply (x : FVec Ideal S4x512x3 .f32) (v5 : FVec Ideal S4x512x512 .f32) (y : FVec Ideal S4x3x512 .f32)
    (prev : FVec Ideal S4x512 .f32) (b : Fin 4) (r : Fin 512) :
    k0_pay7 (F := Ideal) x v5 y prev (ix2 b r)
      = min (prev (ix2 b r)) (Finset.univ.fold Min.min top32 (fun j : Fin 512 => k0_pay6 (F := Ideal) x v5 y (ix3 b r j))) := by
  unfold k0_pay7
  dsimp only
  rw [shapeCast_self]
  show min (prev (ix2 b r)) _ = _
  refine congrArg (min (prev (ix2 b r))) ?_
  refine (min_axis _ _ reduces_S4x512x512_S4x512 _ _ (ix2 b r)).trans ?_
  refine congrArg (Finset.univ.fold Min.min top32) (funext fun j => ?_)
  exact congrArg (k0_pay6 (F := Ideal) x v5 y) (lift_lane _ b r j)

/-- The running column minima after a trip: the minimum of what was there and the tile's minimum along the block. -/
theorem pay8_apply (x : FVec Ideal S4x512x3 .f32) (v5 : FVec Ideal S4x512x512 .f32) (y : FVec Ideal S4x3x512 .f32)
    (prev : FVec Ideal S4x512 .f32) (b : Fin 4) (j : Fin 512) :
    k0_pay8 (F := Ideal) x v5 y prev (ix2 b j)
      = min (prev (ix2 b j)) (Finset.univ.fold Min.min top32 (fun r : Fin 512 => k0_pay6 (F := Ideal) x v5 y (ix3 b r j))) := by
  unfold k0_pay8
  dsimp only
  show min (prev (ix2 b j)) _ = _
  refine congrArg (min (prev (ix2 b j))) ?_
  refine (min_axis _ _ reduces_S4x512x512_S4x512_2 _ _ (ix2 b j)).trans ?_
  refine congrArg (Finset.univ.fold Min.min top32) (funext fun r => ?_)
  exact congrArg (k0_pay6 (F := Ideal) x v5 y) (lift_row _ b j r)

/-- The row minima start from the word's value everywhere. -/
theorem pay2_apply (i : S4x512.Idx) : k0_pay2 (F := Ideal) i = top32 := rfl
/-- So do the column minima. -/
theorem pay3_apply (i : S4x8192.Idx) : k0_pay3 (F := Ideal) i = top32 := by
  unfold k0_pay3
  rw [shapeCast_self]
  rfl
/-- The stored column minima are the computed ones. -/
theorem pay4_eq (v : FVec Ideal S4x512 .f32) : k0_pay4 (F := Ideal) v = v := by
  unfold k0_pay4
  rw [shapeCast_self]
/-- The written-back half: the column minima with a leading unit axis. -/
theorem pay5_apply (v : FVec Ideal S4x8192 .f32) (b : Fin 4) (m : Fin 8192) :
    k0_pay5 (F := Ideal) v (ix3 (0 : Fin 1) b m) = v (ix2 b m) := by
  unfold k0_pay5
  exact shapeCast_apply _ shapeCasts_S4x8192_S1x4x8192 (ix3 (0 : Fin 1) b m) (ix2 b m) (by
    rw [Shape.rowMajor_val_two, Shape.rowMajor_val_three]; show b.val * 8192 + m.val = (0 * 4 + b.val) * 8192 + m.val; omega)

end Cert.KernelIdeal.Pay

end
-- ==== Proof.LoopStep.lean ====
/-
  One trip of the body's loop, as a recurrence on what the two accumulating buffers hold.

  The loop runs over the sixteen chunks of 512 points of the second cloud. Trip `k` reads chunk `k`, forms the tile of
  distances between the block's points and the chunk's points, and
    • replaces the whole row-minima buffer by the minimum of what it held and the tile's minimum along the chunk;
    • replaces columns `512 k … 512 k + 511` of the column-minima buffer by the minimum of what they held and the
      tile's minimum along the block, and leaves the other columns alone.
  `rowsAfter n` and `colsAfter n` are the two buffers' contents after the first `n` trips.
-/
import proofs.«178793_j6528350290147_2_alg».proof.Proof.Gen.KernelIdeal.Loops
import proofs.«178793_j6528350290147_2_alg».proof.Proof.Pay
import Idealize.ShloMosaic.Lib.Pipeline.Value
import Idealize.ShloMosaic.Lib.Tactic

set_option maxRecDepth 16384

noncomputable section

namespace Cert.KernelIdeal.LoopVal

open Cert.KernelIdeal Cert.KernelIdeal.Gen Idealize.ShloMosaic Idealize.ShloMosaic.TcCoe Idealize.ShloMosaic.Tactic
open Idealize.SL Idealize.SL.Sem

variable {F : FTy → Type} [FloatOps F]

theorem hz2 : (![0, 0] : Fin 2 → Nat) = fun _ => 0 := funext fun a => by fin_cases a <;> rfl

variable (𝒱 : Variants) (c : Dev nD) (bd : Option 𝒱.V) (i : grid0.Coords) (arg2 : Memref sig .tc .vmem S4x512x3 .f32) (harg2 : arg2.IsWhole) (arg3 : Memref sig .tc .vmem S4x3x8192 .f32) (harg3 : arg3.IsWhole) (arg4 : Memref sig .tc .vmem S4x512 .f32) (harg4 : arg4.IsWhole) (arg5 : Memref sig .tc .vmem S1x4x8192 .f32) (harg5 : arg5.IsWhole) (arg6 : Memref sig .tc .vmem S4x8192 .f32) (harg6 : arg6.IsWhole)
  (v0 : Vec F S4x512x3 .f32) (X3 : BufTy.Contents (Elt F) arg3.view.ty)
  (G4 : BufTy.Contents (Elt F) arg4.view.ty) (G6 : BufTy.Contents (Elt F) arg6.view.ty)

/-- Chunk `k` of the second cloud, as the trip loads it. -/
def chunk (k : Fin k0_t1_loop.trips) : Vec F S4x3x512 .f32 :=
  View.readAt (Elt F) arg3.view (Rect.unit (s := S4x3x8192) (k0_off1 k) S4x3x512.size (k0_off1_inb k)).toLoadRect X3

/-- The columns trip `k` updates. -/
abbrev colRect (k : Fin k0_t1_loop.trips) : Rect S4x8192 := Rect.unit (s := S4x8192) (k0_off2 k) S4x512.size (k0_off2_inb k)

/-- What one trip stores, from the contents `f4`, `f6` it finds in the two buffers: one store of the whole row-minima
    buffer, one store of the trip's columns. -/
theorem tripL_eq (k : Fin k0_t1_loop.trips) (f4 : BufTy.Contents (Elt F) arg4.view.ty) (f6 : BufTy.Contents (Elt F) arg6.view.ty) :
    tripL_k0_t1 (F := F) 𝒱 c bd i arg2 harg2 arg3 harg3 arg4 harg4 arg5 harg5 arg6 harg6 v0 X3 k f4 f6
      = ([⟨Rect.unit (s := S4x512) ![0, 0] S4x512.size inb_S4x512_S4x512_0_0,
            k0_pay7 v0 (k0_pay1 v0) (chunk arg3 X3 k)
              (View.readAt (Elt F) arg4.view (Rect.unit (s := S4x512) ![0, 0] S4x512.size inb_S4x512_S4x512_0_0).toLoadRect f4)⟩],
         [⟨colRect k, k0_pay4 (k0_pay8 v0 (k0_pay1 v0) (chunk arg3 X3 k) (View.readAt (Elt F) arg6.view (colRect k).toLoadRect f6))⟩]) := by
  unfold tripL_k0_t1
  unfold trip_k0_t1
  dsimp only
  sl_unfold_words
  rfl

/-- The row-minima buffer after the first `n` trips, started from contents `G4`. -/
def rowsAfter (n : ℕ) : S4x512.Idx → Elt F .f32 :=
  arg4.view.read (Elt F) (arg4.view.writes (Elt F) G4 (pb_k0_t1 (F := F) 𝒱 c bd i arg2 harg2 arg3 harg3 arg4 harg4 arg5 harg5 arg6 harg6 v0 X3 G4 G6 n).1)
/-- The column-minima buffer after the first `n` trips, started from contents `G6`. -/
def colsAfter (n : ℕ) : S4x8192.Idx → Elt F .f32 :=
  arg6.view.read (Elt F) (arg6.view.writes (Elt F) G6 (pb_k0_t1 (F := F) 𝒱 c bd i arg2 harg2 arg3 harg3 arg4 harg4 arg5 harg5 arg6 harg6 v0 X3 G4 G6 n).2)

theorem rowsAfter_zero : rowsAfter 𝒱 c bd i arg2 harg2 arg3 harg3 arg4 harg4 arg5 harg5 arg6 harg6 v0 X3 G4 G6 0 = arg4.view.read (Elt F) G4 := rfl
theorem colsAfter_zero : colsAfter 𝒱 c bd i arg2 harg2 arg3 harg3 arg4 harg4 arg5 harg5 arg6 harg6 v0 X3 G4 G6 0 = arg6.view.read (Elt F) G6 := rfl

/-- A trip replaces the row minima by the minimum with the tile's row minima. -/
theorem rowsAfter_succ (k : Fin k0_t1_loop.trips) :
    rowsAfter 𝒱 c bd i arg2 harg2 arg3 harg3 arg4 harg4 arg5 harg5 arg6 harg6 v0 X3 G4 G6 (k.val + 1)
      = k0_pay7 v0 (k0_pay1 v0) (chunk arg3 X3 k) (rowsAfter 𝒱 c bd i arg2 harg2 arg3 harg3 arg4 harg4 arg5 harg5 arg6 harg6 v0 X3 G4 G6 k.val) := by
  unfold rowsAfter
  rw [pb_k0_t1_succ, tripL_eq]
  dsimp only
  rw [View.writes_append, View.read_writes_eq_canon _ _ _ (fun y => ⟨_, List.mem_singleton_self _, View.mem_set_unit_zero hz2 inb_S4x512_S4x512_0_0 y⟩),
    View.canon_unit_zero hz2]
  simp only [View.readAt_eq_ld, View.ld_unit_zero (S := S4x512) hz2]

/-- On the trip's columns it replaces the column minima by the minimum with the tile's column minima … -/
theorem colsAfter_succ_emb (k : Fin k0_t1_loop.trips) (x : (colRect k).shape.Idx) :
    colsAfter 𝒱 c bd i arg2 harg2 arg3 harg3 arg4 harg4 arg5 harg5 arg6 harg6 v0 X3 G4 G6 (k.val + 1) ((colRect k).emb x)
      = k0_pay4 (k0_pay8 v0 (k0_pay1 v0) (chunk arg3 X3 k)
          (View.ld (colsAfter 𝒱 c bd i arg2 harg2 arg3 harg3 arg4 harg4 arg5 harg5 arg6 harg6 v0 X3 G4 G6 k.val) (colRect k))) x := by
  unfold colsAfter
  rw [pb_k0_t1_succ, tripL_eq]
  dsimp only
  rw [View.writes_append]
  exact View.read_writes_cons_emb _ _ (colRect k) _ [] x

/-- … and leaves every other column as it was. -/
theorem colsAfter_succ_out (k : Fin k0_t1_loop.trips) (y : S4x8192.Idx) (hy : y ∉ (colRect k).set) :
    colsAfter 𝒱 c bd i arg2 harg2 arg3 harg3 arg4 harg4 arg5 harg5 arg6 harg6 v0 X3 G4 G6 (k.val + 1) y = colsAfter 𝒱 c bd i arg2 harg2 arg3 harg3 arg4 harg4 arg5 harg5 arg6 harg6 v0 X3 G4 G6 k.val y := by
  unfold colsAfter
  rw [pb_k0_t1_succ, tripL_eq]
  dsimp only
  rw [View.writes_append]
  exact View.read_writes_apply_of_forall_not_mem _ _ y _ (fun p hp => by
    rw [List.mem_singleton] at hp; subst hp; exact hy)

end Cert.KernelIdeal.LoopVal

end
-- ==== Proof.LoopMin.lean ====
/-
  The body's loop on the extended reals: after all sixteen trips
    • entry (b, r) of the row-minima buffer is the minimum, over ALL points `m` of the second cloud, of the floored
      squared distance between block point `r` and point `m` (given that the buffer started at the word 0x7F800000
      everywhere);
    • entry (b, m) of the column-minima buffer is the minimum of what it held before the loop and the minimum, over the
      512 points `r` of the block, of the distance between `r` and `m`: each column is visited by exactly one trip.
  By induction on the number of trips done: after `n` trips the row minima range over the points `m < 512 n`, and the
  columns `m < 512 n` have been updated while the others are untouched.
-/
import proofs.«178793_j6528350290147_2_alg».proof.Proof.LoopStep

set_option maxRecDepth 16384

noncomputable section

open scoped BigOperators

namespace Cert.KernelIdeal.LoopVal

open Cert.KernelIdeal Cert.KernelIdeal.Gen Idealize.ShloMosaic Idealize.ShloMosaic.TcCoe Idealize.ShloMosaic.ValueIdx Chamfer
open Idealize.SL Idealize.SL.Sem

/-- The loop makes sixteen trips. -/
theorem trips_eq : k0_t1_loop.trips = 16 := by decide

/-- The floored squared distance between point `r` of a block `x` and point `m` of a cloud `y` stored coordinate-major. -/
def dist (x : FVec Ideal S4x512x3 .f32) (y : FVec Ideal S4x3x8192 .f32) (b : Fin 4) (r : Fin 512) (m : Fin 8192) : EReal :=
  max ((Pay.bsq x b r + ∑ k : Fin 3, y (ix3 b k m) * y (ix3 b k m)) - two32 * ∑ k : Fin 3, x (ix3 b r k) * y (ix3 b k m)) zero32

/-- Point `j` of chunk `k` is point `512 k + j` of the cloud. -/
def col (k : Fin k0_t1_loop.trips) (j : Fin 512) : Fin 8192 :=
  ⟨512 * k.val + j.val, by have := k.isLt; have := trips_eq; have := j.isLt; omega⟩

theorem exists_col_iff (n : ℕ) (h : n < k0_t1_loop.trips) (m : Fin 8192) :
    (∃ j : Fin 512, col ⟨n, h⟩ j = m) ↔ 512 * n ≤ m.val ∧ m.val < 512 * n + 512 := by
  constructor
  · rintro ⟨j, rfl⟩
    have := j.isLt
    exact ⟨Nat.le_add_right _ _, by show 512 * n + j.val < _; omega⟩
  · rintro ⟨h1, h2⟩
    exact ⟨⟨m.val - 512 * n, by omega⟩, Fin.ext (by show 512 * n + (m.val - 512 * n) = m.val; omega)⟩

variable (𝒱 : Variants) (c : Dev nD) (bd : Option 𝒱.V) (i : grid0.Coords) (arg2 : Memref sig .tc .vmem S4x512x3 .f32) (harg2 : arg2.IsWhole) (arg3 : Memref sig .tc .vmem S4x3x8192 .f32) (harg3 : arg3.IsWhole) (arg4 : Memref sig .tc .vmem S4x512 .f32) (harg4 : arg4.IsWhole) (arg5 : Memref sig .tc .vmem S1x4x8192 .f32) (harg5 : arg5.IsWhole) (arg6 : Memref sig .tc .vmem S4x8192 .f32) (harg6 : arg6.IsWhole)
  (v0 : Vec Ideal S4x512x3 .f32) (X3 : BufTy.Contents (Elt Ideal) arg3.view.ty)
  (G4 : BufTy.Contents (Elt Ideal) arg4.view.ty) (G6 : BufTy.Contents (Elt Ideal) arg6.view.ty)

/-- Chunk `k` is columns `512 k …` of the cloud. -/
theorem chunk_apply (k : Fin k0_t1_loop.trips) (b : Fin 4) (d : Fin 3) (j : Fin 512) :
    (chunk arg3 X3 k : FVec Ideal S4x3x512 .f32) (ix3 b d j) = arg3.view.read (Elt Ideal) X3 (ix3 b d (col k j)) := by
  unfold chunk
  rw [View.readAt_eq_ld]
  show arg3.view.read (Elt Ideal) X3 _ = _
  refine congrArg (arg3.view.read (Elt Ideal) X3) (funext fun a => Fin.ext ?_)
  have ho := k0_off1_eq k
  match a with
  | ⟨0, _⟩ => show (k0_off1 k) 0 + 1 * b.val = b.val; rw [ho]; show 0 + 1 * b.val = b.val; omega
  | ⟨1, _⟩ => show (k0_off1 k) 1 + 1 * d.val = d.val; rw [ho]; show 0 + 1 * d.val = d.val; omega
  | ⟨2, _⟩ => show (k0_off1 k) 2 + 1 * j.val = 512 * k.val + j.val; rw [ho]; show 512 * k.val + 1 * j.val = _; omega

/-- So the trip's tile is the distance table restricted to the chunk's columns. -/
theorem tile_chunk (k : Fin k0_t1_loop.trips) (b : Fin 4) (r j : Fin 512) :
    Pay.tile v0 (chunk arg3 X3 k) b r j = dist v0 (arg3.view.read (Elt Ideal) X3) b r (col k j) := by
  unfold Pay.tile dist Pay.csq Pay.bdot
  simp only [chunk_apply]

/-- The distance term the trip computes, at (b, r, j). -/
theorem pay6_chunk (k : Fin k0_t1_loop.trips) (b : Fin 4) (r j : Fin 512) :
    k0_pay6 (F := Ideal) v0 (k0_pay1 (F := Ideal) v0) (chunk arg3 X3 k) (ix3 b r j)
      = dist v0 (arg3.view.read (Elt Ideal) X3) b r (col k j) :=
  (Pay.pay6_apply v0 (chunk arg3 X3 k) b r j).trans (tile_chunk arg3 v0 X3 k b r j)

/-- ROWS. After `n` trips entry (b, r) is the minimum over the points `m < 512 n`. -/
theorem rows_inv (h0 : ∀ y, arg4.view.read (Elt Ideal) G4 y = top32) (b : Fin 4) (r : Fin 512) :
    ∀ n : ℕ, n ≤ k0_t1_loop.trips →
      IsMinOn (fun m : Fin 8192 => m.val < 512 * n) (fun m => dist v0 (arg3.view.read (Elt Ideal) X3) b r m)
        (rowsAfter 𝒱 c bd i arg2 harg2 arg3 harg3 arg4 harg4 arg5 harg5 arg6 harg6 v0 X3 G4 G6 n (ix2 b r))
  | 0, _ => by
    rw [rowsAfter_zero, h0]
    exact (isMinOn_top _).congr fun m => ⟨fun h => h.elim, fun h => absurd h (by omega)⟩
  | n + 1, hn => by
    have ih := rows_inv h0 b r n (Nat.le_of_succ_le hn)
    have hk : n < k0_t1_loop.trips := hn
    rw [show n + 1 = (⟨n, hk⟩ : Fin k0_t1_loop.trips).val + 1 from rfl, rowsAfter_succ, Pay.pay7_apply]
    refine (ih.min (isMinOn_fold (fun m => dist v0 (arg3.view.read (Elt Ideal) X3) b r m) _ (col ⟨n, hk⟩)
      (fun j => pay6_chunk arg3 v0 X3 ⟨n, hk⟩ b r j))).congr fun m => ?_
    rw [exists_col_iff]
    show m.val < 512 * n ∨ _ ↔ m.val < 512 * (n + 1)
    omega

/-- The minimum over the block's points of the distance to point `m`. -/
def colMin (x : FVec Ideal S4x512x3 .f32) (y : FVec Ideal S4x3x8192 .f32) (b : Fin 4) (m : Fin 8192) : EReal :=
  Finset.univ.fold Min.min top32 (fun r : Fin 512 => dist x y b r m)

/-- Entry (b, 512 k + j) of the column buffer sits at (b, j) of the trip's rectangle. -/
theorem colRect_idx (k : Fin k0_t1_loop.trips) (b : Fin 4) (j : Fin 512) :
    (colRect k).idx (ix2 b j) = ix2 b (col k j) := by
  refine funext fun a => Fin.ext ?_
  have ho := k0_off2_eq k
  match a with
  | ⟨0, _⟩ => show (k0_off2 k) 0 + 1 * b.val = b.val; rw [ho]; show 0 + 1 * b.val = b.val; omega
  | ⟨1, _⟩ => show (k0_off2 k) 1 + 1 * j.val = 512 * k.val + j.val; rw [ho]; show 512 * k.val + 1 * j.val = _; omega

/-- Entry (b, m) lies in the trip's rectangle exactly when `512 k ≤ m < 512 k + 512`. -/
theorem mem_colRect (k : Fin k0_t1_loop.trips) (b : Fin 4) (m : Fin 8192) :
    ix2 b m ∈ (colRect k).set ↔ 512 * k.val ≤ m.val ∧ m.val < 512 * k.val + 512 := by
  rw [Rect.mem_set_unit]
  have ho := k0_off2_eq k
  constructor
  · intro h
    have h1 := h 1
    rw [ho] at h1
    exact h1
  · intro h a
    rw [ho]
    match a with
    | ⟨0, _⟩ => exact ⟨Nat.zero_le _, by show b.val < 0 + 4; have := b.isLt; omega⟩
    | ⟨1, _⟩ => exact h

/-- COLUMNS. After `n` trips the columns `m < 512 n` hold the minimum of their old contents and the block's minimum
    distance to `m`; the columns `m ≥ 512 n` are untouched. -/
theorem cols_inv (b : Fin 4) (m : Fin 8192) :
    ∀ n : ℕ, n ≤ k0_t1_loop.trips →
      (m.val < 512 * n → colsAfter 𝒱 c bd i arg2 harg2 arg3 harg3 arg4 harg4 arg5 harg5 arg6 harg6 v0 X3 G4 G6 n (ix2 b m)
          = min (arg6.view.read (Elt Ideal) G6 (ix2 b m)) (colMin v0 (arg3.view.read (Elt Ideal) X3) b m))
      ∧ (512 * n ≤ m.val → colsAfter 𝒱 c bd i arg2 harg2 arg3 harg3 arg4 harg4 arg5 harg5 arg6 harg6 v0 X3 G4 G6 n (ix2 b m) = arg6.view.read (Elt Ideal) G6 (ix2 b m))
  | 0, _ => ⟨fun h => absurd h (by omega), fun _ => by rw [colsAfter_zero]⟩
  | n + 1, hn => by
    have ih := cols_inv b m n (Nat.le_of_succ_le hn)
    have hk : n < k0_t1_loop.trips := hn
    by_cases hm : 512 * n ≤ m.val ∧ m.val < 512 * n + 512
    · -- the trip that visits column m
      obtain ⟨j, hj⟩ := (exists_col_iff n hk m).mpr hm
      have e : ix2 b m = (colRect ⟨n, hk⟩).emb (ix2 b j) := by rw [← hj]; exact (colRect_idx ⟨n, hk⟩ b j).symm
      refine ⟨fun _ => ?_, fun h => absurd h (by omega)⟩
      have step := colsAfter_succ_emb 𝒱 c bd i arg2 harg2 arg3 harg3 arg4 harg4 arg5 harg5 arg6 harg6 v0 X3 G4 G6 ⟨n, hk⟩ (ix2 b j)
      rw [← e] at step
      rw [show n + 1 = (⟨n, hk⟩ : Fin k0_t1_loop.trips).val + 1 from rfl, step, Pay.pay4_eq]
      refine (Pay.pay8_apply v0 _ _ _ b j).trans ?_
      refine congrArg₂ min ?_ ?_
      · show colsAfter 𝒱 c bd i arg2 harg2 arg3 harg3 arg4 harg4 arg5 harg5 arg6 harg6 v0 X3 G4 G6 n ((colRect ⟨n, hk⟩).idx (ix2 b j)) = _
        rw [colRect_idx, hj]
        exact ih.2 hm.1
      · unfold colMin
        refine congrArg (Finset.univ.fold Min.min top32) (funext fun r => ?_)
        rw [pay6_chunk, hj]
    · -- another trip: column m is left alone
      have hout : ix2 b m ∉ (colRect ⟨n, hk⟩).set := fun h => hm ((mem_colRect ⟨n, hk⟩ b m).mp h)
      have step := colsAfter_succ_out 𝒱 c bd i arg2 harg2 arg3 harg3 arg4 harg4 arg5 harg5 arg6 harg6 v0 X3 G4 G6 ⟨n, hk⟩ (ix2 b m) hout
      refine ⟨fun h => ?_, fun h => ?_⟩
      · rw [show n + 1 = (⟨n, hk⟩ : Fin k0_t1_loop.trips).val + 1 from rfl, step]
        exact ih.1 (by omega)
      · rw [show n + 1 = (⟨n, hk⟩ : Fin k0_t1_loop.trips).val + 1 from rfl, step]
        exact ih.2 (by omega)

/-- After the loop every row minimum ranges over the whole second cloud. -/
theorem rows_final (h0 : ∀ y, arg4.view.read (Elt Ideal) G4 y = top32) (b : Fin 4) (r : Fin 512) :
    IsMinOn (fun _ : Fin 8192 => True) (fun m => dist v0 (arg3.view.read (Elt Ideal) X3) b r m)
      (rowsAfter 𝒱 c bd i arg2 harg2 arg3 harg3 arg4 harg4 arg5 harg5 arg6 harg6 v0 X3 G4 G6 k0_t1_loop.trips (ix2 b r)) :=
  (rows_inv 𝒱 c bd i arg2 harg2 arg3 harg3 arg4 harg4 arg5 harg5 arg6 harg6 v0 X3 G4 G6 h0 b r _ le_rfl).congr fun m =>
    ⟨fun _ => trivial, fun _ => by rw [trips_eq]; have := m.isLt; omega⟩

/-- After the loop every column has been updated once. -/
theorem cols_final (b : Fin 4) (m : Fin 8192) :
    colsAfter 𝒱 c bd i arg2 harg2 arg3 harg3 arg4 harg4 arg5 harg5 arg6 harg6 v0 X3 G4 G6 k0_t1_loop.trips (ix2 b m)
      = min (arg6.view.read (Elt Ideal) G6 (ix2 b m)) (colMin v0 (arg3.view.read (Elt Ideal) X3) b m) :=
  (cols_inv 𝒱 c bd i arg2 harg2 arg3 harg3 arg4 harg4 arg5 harg5 arg6 harg6 v0 X3 G4 G6 b m _ le_rfl).1 (by rw [trips_eq]; have := m.isLt; omega)

end Cert.KernelIdeal.LoopVal

end
-- ==== Proof.Cases.lean ====
/-
  What one grid point leaves behind, in each of its three kinds.

  Every point first fills the row-minima buffer with the word 0x7F800000 and then runs the loop; a first point of a
  half (kind A) also fills the column-minima buffer with that word before the loop, the other points (kinds B and C)
  run the loop on the column minima the point before left; a last point of a half (kind C) finally copies the column
  minima into the output block of its half. So at the ideal values, for a block `x` and the coordinate-major cloud `y`:
    • the row-minima block is, entry by entry, the minimum over all points of the cloud of the distance to the
      block's point;
    • the column-minima buffer is the minimum of what the point found there (the word's value, for kind A) and the
      block's minimum distance to each point of the cloud.
-/
import proofs.«178793_j6528350290147_2_alg».proof.Proof.Gen.KernelIdeal.Frame
import proofs.«178793_j6528350290147_2_alg».proof.Proof.LoopMin

set_option maxRecDepth 16384

noncomputable section

namespace Cert.KernelIdeal.Cases

open Cert.KernelIdeal Cert.KernelIdeal.Gen Cert.KernelIdeal.LoopVal Idealize.ShloMosaic Idealize.ShloMosaic.TcCoe
open Idealize.ShloMosaic.Tactic Idealize.ShloMosaic.ValueIdx Chamfer
open Idealize.SL Idealize.SL.Sem

theorem hz3 : (![0, 0, 0] : Fin 3 → Nat) = fun _ => 0 := funext fun a => by fin_cases a <;> rfl

variable (c : Dev nD) (i : grid0.Coords) (arg2 : Memref sig .tc .vmem S4x512x3 .f32) (harg2 : arg2.IsWhole) (arg3 : Memref sig .tc .vmem S4x3x8192 .f32) (harg3 : arg3.IsWhole) (arg4 : Memref sig .tc .vmem S4x512 .f32) (harg4 : arg4.IsWhole) (arg5 : Memref sig .tc .vmem S1x4x8192 .f32) (harg5 : arg5.IsWhole) (arg6 : Memref sig .tc .vmem S4x8192 .f32) (harg6 : arg6.IsWhole)

/-- The row-minima buffer as the loop finds it: filled with the starting word. -/
abbrev rowInit : BufTy.Contents (Elt Ideal) arg4.view.ty :=
  arg4.view.writes (Elt Ideal) arg4.view.junk [⟨Rect.unit (s := S4x512) ![0, 0] S4x512.size inb_S4x512_S4x512_0_0, k0_pay2 (F := Ideal)⟩]
/-- The column-minima buffer as a first point's loop finds it: filled with the starting word. -/
abbrev colInit : BufTy.Contents (Elt Ideal) arg6.view.ty :=
  arg6.view.writes (Elt Ideal) arg6.view.junk [⟨Rect.unit (s := S4x8192) ![0, 0] S4x8192.size inb_S4x8192_S4x8192_0_0, k0_pay3 (F := Ideal)⟩]

theorem read_rowInit (y : S4x512.Idx) : arg4.view.read (Elt Ideal) (rowInit arg4) y = top32 := by
  unfold rowInit
  rw [View.read_writes_eq_canon _ _ _ (fun y => ⟨_, List.mem_singleton_self _, View.mem_set_unit_zero hz2 inb_S4x512_S4x512_0_0 y⟩),
    View.canon_unit_zero hz2]
  rfl
theorem read_colInit (y : S4x8192.Idx) : arg6.view.read (Elt Ideal) (colInit arg6) y = top32 := by
  unfold colInit
  rw [View.read_writes_eq_canon _ _ _ (fun y => ⟨_, List.mem_singleton_self _, View.mem_set_unit_zero hz2 inb_S4x8192_S4x8192_0_0 y⟩),
    View.canon_unit_zero hz2]
  exact Pay.pay3_apply y

/-! ## Each kind's buffers are the loop's -/

theorem out_A_2 (hc0 : cond0_0 i) (hc1 : ¬cond0_1 i) (x0 : Vec Ideal S4x512x3 .f32) (x1 : Vec Ideal S4x3x8192 .f32) :
    out0_A_2 c i arg2 harg2 arg3 harg3 arg4 harg4 arg5 harg5 arg6 harg6 hc0 hc1 x0 x1 = rowsAfter Variants.none c none i arg2 harg2 arg3 harg3 arg4 harg4 arg5 harg5 arg6 harg6 x0 (harg3.unread x1) (rowInit arg4) (colInit arg6) k0_t1_loop.trips := by
  unfold out0_A_2
  rw [View.read_writes_of_cover VO0_2 _ arg4.view arg4.view.junk _ (cover0_A_2 c i arg2 harg2 arg3 harg3 arg4 harg4 arg5 harg5 arg6 harg6 hc0 hc1 x0 x1)]
  unfold kernelRun0_A
  dsimp only
  sl_unfold_words
  rw [View.writes_append]
  simp only [View.readAt_eq_ld, harg2.read_unread, View.ld_unit_zero (S := S4x512x3) hz3]
  rfl

theorem sout_A_0 (hc0 : cond0_0 i) (hc1 : ¬cond0_1 i) (x0 : Vec Ideal S4x512x3 .f32) (x1 : Vec Ideal S4x3x8192 .f32) :
    sout0_A_0 c i arg2 harg2 arg3 harg3 arg4 harg4 arg5 harg5 arg6 harg6 hc0 hc1 x0 x1 = colsAfter Variants.none c none i arg2 harg2 arg3 harg3 arg4 harg4 arg5 harg5 arg6 harg6 x0 (harg3.unread x1) (rowInit arg4) (colInit arg6) k0_t1_loop.trips := by
  unfold sout0_A_0
  rw [View.read_writes_of_cover VS0_0 _ arg6.view arg6.view.junk _ (scover0_A_0 c i arg2 harg2 arg3 harg3 arg4 harg4 arg5 harg5 arg6 harg6 hc0 hc1 x0 x1)]
  unfold kernelRun0_A
  dsimp only
  sl_unfold_words
  rw [View.writes_append]
  simp only [View.readAt_eq_ld, harg2.read_unread, View.ld_unit_zero (S := S4x512x3) hz3]
  rfl

theorem out_B_2 (hc0 : ¬cond0_0 i) (hc1 : ¬cond0_1 i) (x0 : Vec Ideal S4x512x3 .f32) (x1 : Vec Ideal S4x3x8192 .f32) (xs0 : Vec Ideal S4x8192 .f32) :
    out0_B_2 c i arg2 harg2 arg3 harg3 arg4 harg4 arg5 harg5 arg6 harg6 hc0 hc1 x0 x1 xs0 = rowsAfter Variants.none c none i arg2 harg2 arg3 harg3 arg4 harg4 arg5 harg5 arg6 harg6 x0 (harg3.unread x1) (rowInit arg4) (harg6.unread xs0) k0_t1_loop.trips := by
  unfold out0_B_2
  rw [View.read_writes_of_cover VO0_2 _ arg4.view arg4.view.junk _ (cover0_B_2 c i arg2 harg2 arg3 harg3 arg4 harg4 arg5 harg5 arg6 harg6 hc0 hc1 x0 x1 xs0)]
  unfold kernelRun0_B
  dsimp only
  sl_unfold_words
  rw [View.writes_append]
  simp only [View.readAt_eq_ld, harg2.read_unread, View.ld_unit_zero (S := S4x512x3) hz3]
  rfl

theorem sout_B_0 (hc0 : ¬cond0_0 i) (hc1 : ¬cond0_1 i) (x0 : Vec Ideal S4x512x3 .f32) (x1 : Vec Ideal S4x3x8192 .f32) (xs0 : Vec Ideal S4x8192 .f32) :
    sout0_B_0 c i arg2 harg2 arg3 harg3 arg4 harg4 arg5 harg5 arg6 harg6 hc0 hc1 x0 x1 xs0 = colsAfter Variants.none c none i arg2 harg2 arg3 harg3 arg4 harg4 arg5 harg5 arg6 harg6 x0 (harg3.unread x1) (rowInit arg4) (harg6.unread xs0) k0_t1_loop.trips := by
  unfold sout0_B_0
  rw [View.read_writes_of_cover VS0_0 _ arg6.view (harg6.unread xs0) _ (scover0_B_0 c i arg2 harg2 arg3 harg3 arg4 harg4 arg5 harg5 arg6 harg6 hc0 hc1 x0 x1 xs0)]
  unfold kernelRun0_B
  dsimp only
  sl_unfold_words
  simp only [View.readAt_eq_ld, harg2.read_unread, View.ld_unit_zero (S := S4x512x3) hz3]
  rfl

theorem out_C_2 (hc0 : ¬cond0_0 i) (hc1 : cond0_1 i) (x0 : Vec Ideal S4x512x3 .f32) (x1 : Vec Ideal S4x3x8192 .f32) (xs0 : Vec Ideal S4x8192 .f32) :
    out0_C_2 c i arg2 harg2 arg3 harg3 arg4 harg4 arg5 harg5 arg6 harg6 hc0 hc1 x0 x1 xs0 = rowsAfter Variants.none c none i arg2 harg2 arg3 harg3 arg4 harg4 arg5 harg5 arg6 harg6 x0 (harg3.unread x1) (rowInit arg4) (harg6.unread xs0) k0_t1_loop.trips := by
  unfold out0_C_2
  rw [View.read_writes_of_cover VO0_2 _ arg4.view arg4.view.junk _ (cover0_C_2 c i arg2 harg2 arg3 harg3 arg4 harg4 arg5 harg5 arg6 harg6 hc0 hc1 x0 x1 xs0)]
  unfold kernelRun0_C
  dsimp only
  sl_unfold_words
  rw [View.writes_append]
  simp only [View.readAt_eq_ld, harg2.read_unread, View.ld_unit_zero (S := S4x512x3) hz3]
  rfl

theorem sout_C_0 (hc0 : ¬cond0_0 i) (hc1 : cond0_1 i) (x0 : Vec Ideal S4x512x3 .f32) (x1 : Vec Ideal S4x3x8192 .f32) (xs0 : Vec Ideal S4x8192 .f32) :
    sout0_C_0 c i arg2 harg2 arg3 harg3 arg4 harg4 arg5 harg5 arg6 harg6 hc0 hc1 x0 x1 xs0 = colsAfter Variants.none c none i arg2 harg2 arg3 harg3 arg4 harg4 arg5 harg5 arg6 harg6 x0 (harg3.unread x1) (rowInit arg4) (harg6.unread xs0) k0_t1_loop.trips := by
  unfold sout0_C_0
  rw [View.read_writes_of_cover VS0_0 _ arg6.view (harg6.unread xs0) _ (scover0_C_0 c i arg2 harg2 arg3 harg3 arg4 harg4 arg5 harg5 arg6 harg6 hc0 hc1 x0 x1 xs0)]
  unfold kernelRun0_C
  dsimp only
  sl_unfold_words
  simp only [View.readAt_eq_ld, harg2.read_unread, View.ld_unit_zero (S := S4x512x3) hz3]
  rfl

theorem out_C_3 (hc0 : ¬cond0_0 i) (hc1 : cond0_1 i) (x0 : Vec Ideal S4x512x3 .f32) (x1 : Vec Ideal S4x3x8192 .f32) (xs0 : Vec Ideal S4x8192 .f32) :
    out0_C_3 c i arg2 harg2 arg3 harg3 arg4 harg4 arg5 harg5 arg6 harg6 hc0 hc1 x0 x1 xs0 = k0_pay5 (F := Ideal) (colsAfter Variants.none c none i arg2 harg2 arg3 harg3 arg4 harg4 arg5 harg5 arg6 harg6 x0 (harg3.unread x1) (rowInit arg4) (harg6.unread xs0) k0_t1_loop.trips) := by
  unfold out0_C_3
  rw [View.read_writes_of_cover VO0_3 _ arg5.view arg5.view.junk _ (cover0_C_3 c i arg2 harg2 arg3 harg3 arg4 harg4 arg5 harg5 arg6 harg6 hc0 hc1 x0 x1 xs0)]
  unfold kernelRun0_C
  dsimp only
  sl_unfold_words
  rw [View.read_writes_eq_canon _ _ _ (fun y => ⟨_, List.mem_singleton_self _, View.mem_set_unit_zero hz3 inb_S1x4x8192_S1x4x8192_0_0_0 y⟩),
    View.canon_unit_zero hz3]
  simp only [View.readAt_eq_ld, harg2.read_unread, View.ld_unit_zero (S := S4x512x3) hz3, View.ld_unit_zero (S := S4x8192) hz2]
  rfl

/-! ## Their values at the ideal instance -/

/-- Kind A's row minima range over the whole cloud. -/
theorem rows_A (hc0 : cond0_0 i) (hc1 : ¬cond0_1 i) (x0 : Vec Ideal S4x512x3 .f32) (x1 : Vec Ideal S4x3x8192 .f32) (b : Fin 4) (r : Fin 512) :
    IsMinOn (fun _ : Fin 8192 => True) (fun p => dist x0 x1 b r p) (out0_A_2 c i arg2 harg2 arg3 harg3 arg4 harg4 arg5 harg5 arg6 harg6 hc0 hc1 x0 x1 (ix2 b r)) := by
  rw [out_A_2]
  have h := rows_final Variants.none c none i arg2 harg2 arg3 harg3 arg4 harg4 arg5 harg5 arg6 harg6 x0 (harg3.unread x1) (rowInit arg4) (colInit arg6) (read_rowInit arg4) b r
  rwa [harg3.read_unread] at h
/-- So do kind B's … -/
theorem rows_B (hc0 : ¬cond0_0 i) (hc1 : ¬cond0_1 i) (x0 : Vec Ideal S4x512x3 .f32) (x1 : Vec Ideal S4x3x8192 .f32) (xs0 : Vec Ideal S4x8192 .f32) (b : Fin 4) (r : Fin 512) :
    IsMinOn (fun _ : Fin 8192 => True) (fun p => dist x0 x1 b r p) (out0_B_2 c i arg2 harg2 arg3 harg3 arg4 harg4 arg5 harg5 arg6 harg6 hc0 hc1 x0 x1 xs0 (ix2 b r)) := by
  rw [out_B_2]
  have h := rows_final Variants.none c none i arg2 harg2 arg3 harg3 arg4 harg4 arg5 harg5 arg6 harg6 x0 (harg3.unread x1) (rowInit arg4) (harg6.unread xs0) (read_rowInit arg4) b r
  rwa [harg3.read_unread] at h
/-- … and kind C's. -/
theorem rows_C (hc0 : ¬cond0_0 i) (hc1 : cond0_1 i) (x0 : Vec Ideal S4x512x3 .f32) (x1 : Vec Ideal S4x3x8192 .f32) (xs0 : Vec Ideal S4x8192 .f32) (b : Fin 4) (r : Fin 512) :
    IsMinOn (fun _ : Fin 8192 => True) (fun p => dist x0 x1 b r p) (out0_C_2 c i arg2 harg2 arg3 harg3 arg4 harg4 arg5 harg5 arg6 harg6 hc0 hc1 x0 x1 xs0 (ix2 b r)) := by
  rw [out_C_2]
  have h := rows_final Variants.none c none i arg2 harg2 arg3 harg3 arg4 harg4 arg5 harg5 arg6 harg6 x0 (harg3.unread x1) (rowInit arg4) (harg6.unread xs0) (read_rowInit arg4) b r
  rwa [harg3.read_unread] at h

/-- Kind A's column minima: the word's value against the block's minimum distance. -/
theorem cols_A (hc0 : cond0_0 i) (hc1 : ¬cond0_1 i) (x0 : Vec Ideal S4x512x3 .f32) (x1 : Vec Ideal S4x3x8192 .f32) (b : Fin 4) (j : Fin 8192) :
    sout0_A_0 c i arg2 harg2 arg3 harg3 arg4 harg4 arg5 harg5 arg6 harg6 hc0 hc1 x0 x1 (ix2 b j) = min top32 (colMin x0 x1 b j) := by
  rw [sout_A_0, cols_final, harg3.read_unread, read_colInit]
/-- Kind B's: what the point before left against the block's minimum distance. -/
theorem cols_B (hc0 : ¬cond0_0 i) (hc1 : ¬cond0_1 i) (x0 : Vec Ideal S4x512x3 .f32) (x1 : Vec Ideal S4x3x8192 .f32) (xs0 : Vec Ideal S4x8192 .f32) (b : Fin 4) (j : Fin 8192) :
    sout0_B_0 c i arg2 harg2 arg3 harg3 arg4 harg4 arg5 harg5 arg6 harg6 hc0 hc1 x0 x1 xs0 (ix2 b j) = min (xs0 (ix2 b j)) (colMin x0 x1 b j) := by
  rw [sout_B_0, cols_final, harg3.read_unread, harg6.read_unread]
/-- Kind C's likewise … -/
theorem cols_C (hc0 : ¬cond0_0 i) (hc1 : cond0_1 i) (x0 : Vec Ideal S4x512x3 .f32) (x1 : Vec Ideal S4x3x8192 .f32) (xs0 : Vec Ideal S4x8192 .f32) (b : Fin 4) (j : Fin 8192) :
    sout0_C_0 c i arg2 harg2 arg3 harg3 arg4 harg4 arg5 harg5 arg6 harg6 hc0 hc1 x0 x1 xs0 (ix2 b j) = min (xs0 (ix2 b j)) (colMin x0 x1 b j) := by
  rw [sout_C_0, cols_final, harg3.read_unread, harg6.read_unread]
/-- … and it writes the same numbers into the output block of its half. -/
theorem half_C (hc0 : ¬cond0_0 i) (hc1 : cond0_1 i) (x0 : Vec Ideal S4x512x3 .f32) (x1 : Vec Ideal S4x3x8192 .f32) (xs0 : Vec Ideal S4x8192 .f32) (b : Fin 4) (j : Fin 8192) :
    out0_C_3 c i arg2 harg2 arg3 harg3 arg4 harg4 arg5 harg5 arg6 harg6 hc0 hc1 x0 x1 xs0 (ix3 (0 : Fin 1) b j) = min (xs0 (ix2 b j)) (colMin x0 x1 b j) := by
  rw [out_C_3, Pay.pay5_apply, cols_final, harg3.read_unread, harg6.read_unread]

end Cert.KernelIdeal.Cases

end
-- ==== Proof.Grid.lean ====
/-
  The grid of the kernel: sixteen points, point `t` handling rows `512 t … 512 t + 511` of the first cloud; points 0–7 form
  the first half (rows 0 … 4095) and points 8–15 the second.
-/
import proofs.«178793_j6528350290147_2_alg».proof.Proof.Gen.KernelIdeal.Frame
import proofs.«178793_j6528350290147_2_alg».proof.Proof.Spec

noncomputable section

namespace Cert.KernelIdeal.KV

open Cert.KernelIdeal Cert.KernelIdeal.Gen Idealize.ShloMosaic Idealize.ShloMosaic.TcCoe Idealize.SL.Sem

variable (m : (ℓ : Loc nD τ sig) → Buf (Elt Ideal) ℓ)

/-- The first cloud as launched on core `c`. -/
abbrev Parr (c : Dev nD) : Chamfer.Pts := m ((c : Thread nD τ).loc main_arg0)
/-- The second cloud as launched on core `c`. -/
abbrev Tarr (c : Dev nD) : Chamfer.Pts := m ((c : Thread nD τ).loc main_arg1)

/-- Row `r` of the block of point `t`: row `512 t + r` of the cloud. -/
def tileRow (t : Fin cfg0.N) (r : Fin 512) : Fin 8192 :=
  ⟨512 * t.val + r.val, by have := t.isLt; have hN : cfg0.N = 16 := N_0; have := r.isLt; omega⟩

/-- The half a point belongs to. -/
def halfOf (t : Fin cfg0.N) : Fin 2 := ⟨t.val / 8, by have := t.isLt; have hN : cfg0.N = 16 := N_0; omega⟩

theorem tileRow_val (t : Fin cfg0.N) (r : Fin 512) : (tileRow t r).val = 512 * t.val + r.val := rfl
theorem halfOf_val (t : Fin cfg0.N) : (halfOf t).val = t.val / 8 := rfl

end Cert.KernelIdeal.KV

end
-- ==== Proof.Blocks.lean ====
/-
  The blocks the kernel is handed at a grid point, as entries of the two clouds.

  At point `t` the first window holds rows `512 t … 512 t + 511` of the first cloud, and the second window holds the
  whole second cloud with its last two axes exchanged (a transposition made before the grid is entered).
-/
import proofs.«178793_j6528350290147_2_alg».proof.Proof.Grid
import Idealize.ShloMosaic.Lib.Pipeline.Value
import Idealize.ShloMosaic.Lib.ValueIdx
import Idealize.ShloMosaic.Lib.StableHlo.Run

noncomputable section

namespace Cert.KernelIdeal.KV

open Cert.KernelIdeal Cert.KernelIdeal.Gen Idealize.ShloMosaic Idealize.ShloMosaic.ValueIdx Idealize.ShloMosaic.TcCoe Idealize.SL.Sem

variable (m : (ℓ : Loc nD τ sig) → Buf (Elt Ideal) ℓ)

/-- The first window's block at point `t` is block `t` along the point axis and block 0 along the other two. -/
theorem idx0 : ∀ t : Fin cfg0.N, win0_0.index t (0 : Fin 3) = 0 ∧ win0_0.index t (1 : Fin 3) = t.val ∧ win0_0.index t (2 : Fin 3) = 0 :=
  (by decide +kernel : ∀ t : Fin grid0.N, win0_0.index t (0 : Fin 3) = 0 ∧ win0_0.index t (1 : Fin 3) = t.val ∧ win0_0.index t (2 : Fin 3) = 0)

/-- The second window's block is block 0 along every axis, at every point: the whole array. -/
theorem idx1 : ∀ t : Fin cfg0.N, win0_1.index t (0 : Fin 3) = 0 ∧ win0_1.index t (1 : Fin 3) = 0 ∧ win0_1.index t (2 : Fin 3) = 0 :=
  (by decide +kernel : ∀ t : Fin grid0.N, win0_1.index t (0 : Fin 3) = 0 ∧ win0_1.index t (1 : Fin 3) = 0 ∧ win0_1.index t (2 : Fin 3) = 0)

/-- The array the second window reads is the second cloud with its last two axes exchanged. -/
theorem v0_eq (c : Dev nD) : (V m c main_v0 : S4x3x8192.Idx → EReal)
    = transpose S4x3x8192 [0, 2, 1] (m ((c : Thread nD τ).loc main_arg1)) transposes_S4x8192x3_S4x3x8192_0_2_1 := by
  show StableHlo.after hostOps0 (fun b => m (c, b)) (Proc.devRef .tc main_v0) = _
  after_results

/-- Entry `(b, r, k)` of the first window's block at point `t` is coordinate `k` of point `512 t + r` of batch `b` of
    the first cloud. -/
theorem blk0_apply (c : Dev nD) (t : Fin cfg0.N) (b : Fin 4) (r : Fin 512) (k : Fin 3) :
    (iblk m c 0 t : FVec Ideal S4x512x3 .f32) (ix3 b r k) = Parr m c (ix3 b (tileRow t r) k) := by
  obtain ⟨e0, e1, e2⟩ := idx0 t
  unfold iblk
  rw [View.read_apply]
  show V m c main_arg0 _ = m ((c : Thread nD τ).loc main_arg0) _
  rw [V_main_arg0]
  congr 1
  funext a
  apply Fin.ext
  match a with
  | ⟨0, _⟩ => show win0_0.index t (0 : Fin 3) * 4 + 1 * b.val = b.val; rw [e0]; omega
  | ⟨1, _⟩ => show win0_0.index t (1 : Fin 3) * 512 + 1 * r.val = 512 * t.val + r.val; rw [e1]; omega
  | ⟨2, _⟩ => show win0_0.index t (2 : Fin 3) * 3 + 1 * k.val = k.val; rw [e2]; omega

/-- Entry `(b, d, j)` of the second window's block, at any point, is coordinate `d` of point `j` of batch `b` of the
    second cloud. -/
theorem blk1_apply (c : Dev nD) (t : Fin cfg0.N) (b : Fin 4) (d : Fin 3) (j : Fin 8192) :
    (iblk m c 1 t : FVec Ideal S4x3x8192 .f32) (ix3 b d j) = Tarr m c (ix3 b j d) := by
  obtain ⟨e0, e1, e2⟩ := idx1 t
  unfold iblk
  rw [View.read_apply]
  show (V m c main_v0 : S4x3x8192.Idx → EReal) _ = m ((c : Thread nD τ).loc main_arg1) _
  rw [v0_eq]
  refine transpose_apply [0, 2, 1] _ transposes_S4x8192x3_S4x3x8192_0_2_1 _ (ix3 b j d) fun a => ?_
  match a with
  | ⟨0, _⟩ => show b.val = win0_1.index t (0 : Fin 3) * 4 + 1 * b.val; rw [e0]; omega
  | ⟨1, _⟩ => show d.val = win0_1.index t (1 : Fin 3) * 3 + 1 * d.val; rw [e1]; omega
  | ⟨2, _⟩ => show j.val = win0_1.index t (2 : Fin 3) * 8192 + 1 * j.val; rw [e2]; omega

end Cert.KernelIdeal.KV

end
-- ==== Proof.Points.lean ====
/-
  The grid, point by point.

  Point `t` (of sixteen) holds rows `512 t … 512 t + 511` of the first cloud and the whole second cloud. Its row-minima
  block is therefore the nearest-neighbour distance of those rows. The column minima are carried from point to point
  within a half (points 8h … 8h + 7) and reset at the half's first point, so after point `t` they are the minimum over
  rows `4096 h … 512 (t + 1) − 1`; at the half's last point these are all the half's rows, and that is what the point
  writes into the half's output block.
-/
import proofs.«178793_j6528350290147_2_alg».proof.Proof.Cases
import proofs.«178793_j6528350290147_2_alg».proof.Proof.Blocks

set_option maxRecDepth 16384

noncomputable section

open scoped BigOperators

namespace Cert.KernelIdeal.KV

open Cert.KernelIdeal Cert.KernelIdeal.Gen Cert.KernelIdeal.LoopVal Idealize.ShloMosaic Idealize.ShloMosaic.TcCoe
open Idealize.ShloMosaic.ValueIdx Chamfer
open Idealize.SL Idealize.SL.Sem

variable (m : (ℓ : Loc nD τ sig) → Buf (Elt Ideal) ℓ) (c : Dev nD)

/-- Between the block of point `t` and the staged second cloud, the body's distance is the table's entry at row `512 t + r`. -/
theorem dist_blocks (t : Fin cfg0.N) (b : Fin 4) (r : Fin 512) (p : Fin 8192) :
    dist (iblk m c 0 t) (iblk m c 1 t) b r p = d2 (Parr m c) (Tarr m c) b (tileRow t r) p := by
  unfold LoopVal.dist Pay.bsq Chamfer.d2 Chamfer.sq Chamfer.dotp
  simp only [blk0_apply, blk1_apply]

theorem exists_tileRow_iff (t : Fin cfg0.N) (p : Fin 8192) :
    (∃ r : Fin 512, tileRow t r = p) ↔ 512 * t.val ≤ p.val ∧ p.val < 512 * t.val + 512 := by
  constructor
  · rintro ⟨r, rfl⟩
    have := r.isLt
    exact ⟨Nat.le_add_right _ _, by show 512 * t.val + r.val < _; omega⟩
  · rintro ⟨h1, h2⟩
    exact ⟨⟨p.val - 512 * t.val, by omega⟩, Fin.ext (by show 512 * t.val + (p.val - 512 * t.val) = p.val; omega)⟩

/-- The block's minimum distance to point `j`: the minimum over the rows of point `t`. -/
theorem colMin_blocks (t : Fin cfg0.N) (b : Fin 4) (j : Fin 8192) :
    IsMinOn (fun p : Fin 8192 => 512 * t.val ≤ p.val ∧ p.val < 512 * t.val + 512) (fun p => d2 (Parr m c) (Tarr m c) b p j)
      (colMin (iblk m c 0 t) (iblk m c 1 t) b j) :=
  (isMinOn_fold (fun p => d2 (Parr m c) (Tarr m c) b p j) _ (tileRow t) (fun r => dist_blocks m c t b r j)).congr
    (exists_tileRow_iff t)

/-- THE CARRIED COLUMN MINIMA after point `n`: the minimum over the rows of the half seen so far. -/
theorem scratch_inv : ∀ (n : ℕ) (hn : n < cfg0.N) (b : Fin 4) (j : Fin 8192),
    IsMinOn (fun p : Fin 8192 => 4096 * (n / 8) ≤ p.val ∧ p.val < 512 * (n + 1)) (fun p => d2 (Parr m c) (Tarr m c) b p j)
      (((outsAt0 m c n hn).2.2 : FVec Ideal S4x8192 .f32) (ix2 b j))
  | 0, hn, b, j => by
    have e := outsAt0_A m c ⟨0, hn⟩ rfl (by dsimp only; omega)
    rw [show outsAt0 m c 0 hn = outsAt0 m c (⟨0, hn⟩ : Fin cfg0.N).val (⟨0, hn⟩ : Fin cfg0.N).isLt from rfl, e]
    dsimp only
    rw [Cases.cols_A]
    exact ((isMinOn_top _).min (colMin_blocks m c ⟨0, hn⟩ b j)).congr fun p => by
      show (False ∨ (512 * 0 ≤ p.val ∧ p.val < 512 * 0 + 512)) ↔ _
      refine (iff_of_eq (false_or _)).trans ?_
      omega
  | n + 1, hn, b, j => by
    have hN : cfg0.N = 16 := N_0
    have ih := scratch_inv n (Nat.lt_of_succ_lt hn) b j
    by_cases h0 : (n + 1) % 8 = 0
    · have e := outsAt0_A m c ⟨n + 1, hn⟩ h0 (by dsimp only; omega)
      rw [show outsAt0 m c (n + 1) hn = outsAt0 m c (⟨n + 1, hn⟩ : Fin cfg0.N).val (⟨n + 1, hn⟩ : Fin cfg0.N).isLt from rfl, e]
      dsimp only
      rw [Cases.cols_A]
      exact ((isMinOn_top _).min (colMin_blocks m c ⟨n + 1, hn⟩ b j)).congr fun p => by
        show (False ∨ (512 * (n + 1) ≤ p.val ∧ p.val < 512 * (n + 1) + 512)) ↔ _
        refine (iff_of_eq (false_or _)).trans ?_
        omega
    · by_cases h1 : (n + 1) % 8 = 7
      · have e := outsAt0_C m c ⟨n + 1, hn⟩ h0 h1
        rw [show outsAt0 m c (n + 1) hn = outsAt0 m c (⟨n + 1, hn⟩ : Fin cfg0.N).val (⟨n + 1, hn⟩ : Fin cfg0.N).isLt from rfl, e]
        dsimp only
        rw [Cases.cols_C]
        exact (ih.min (colMin_blocks m c ⟨n + 1, hn⟩ b j)).congr fun p => by
          show ((4096 * (n / 8) ≤ p.val ∧ p.val < 512 * (n + 1)) ∨ (512 * (n + 1) ≤ p.val ∧ p.val < 512 * (n + 1) + 512)) ↔ _
          omega
      · have e := outsAt0_B m c ⟨n + 1, hn⟩ h0 h1
        rw [show outsAt0 m c (n + 1) hn = outsAt0 m c (⟨n + 1, hn⟩ : Fin cfg0.N).val (⟨n + 1, hn⟩ : Fin cfg0.N).isLt from rfl, e]
        dsimp only
        rw [Cases.cols_B]
        exact (ih.min (colMin_blocks m c ⟨n + 1, hn⟩ b j)).congr fun p => by
          show ((4096 * (n / 8) ≤ p.val ∧ p.val < 512 * (n + 1)) ∨ (512 * (n + 1) ≤ p.val ∧ p.val < 512 * (n + 1) + 512)) ↔ _
          omega

/-- THE ROW MINIMA of point `t`: the nearest-neighbour distances of its rows. -/
theorem rows_out (t : Fin cfg0.N) (b : Fin 4) (r : Fin 512) :
    ((outsAt0 m c t.val t.isLt).1 : FVec Ideal S4x512 .f32) (ix2 b r)
      = nearX (Parr m c) (Tarr m c) (ix2 b (tileRow t r)) := by
  have hN : cfg0.N = 16 := N_0
  have key : ∀ v : EReal, IsMinOn (fun _ : Fin 8192 => True) (fun p => dist (iblk m c 0 t) (iblk m c 1 t) b r p) v →
      v = nearX (Parr m c) (Tarr m c) (ix2 b (tileRow t r)) := fun v hv => by
    rw [show (fun p => dist (iblk m c 0 t) (iblk m c 1 t) b r p) = fun p => d2 (Parr m c) (Tarr m c) b (tileRow t r) p from
      funext fun p => dist_blocks m c t b r p] at hv
    exact hv.toIsMin.unique (isMin_nearX _ _ b (tileRow t r))
  by_cases h0 : t.val % 8 = 0
  · rw [outsAt0_A m c t h0 (by omega)]
    exact key _ (Cases.rows_A c _ (ms0_0 t) (hs0_0 t) (ms0_1 t) (hs0_1 t) (ms0_2 t) (hs0_2 t) (ms0_3 t) (hs0_3 t) scM0_0 (Memref.isWhole_whole _) _ _ _ _ b r)
  · by_cases h1 : t.val % 8 = 7
    · rw [outsAt0_C m c t h0 h1]
      exact key _ (Cases.rows_C c _ (ms0_0 t) (hs0_0 t) (ms0_1 t) (hs0_1 t) (ms0_2 t) (hs0_2 t) (ms0_3 t) (hs0_3 t) scM0_0 (Memref.isWhole_whole _) _ _ _ _ _ b r)
    · rw [outsAt0_B m c t h0 h1]
      exact key _ (Cases.rows_B c _ (ms0_0 t) (hs0_0 t) (ms0_1 t) (hs0_1 t) (ms0_2 t) (hs0_2 t) (ms0_3 t) (hs0_3 t) scM0_0 (Memref.isWhole_whole _) _ _ _ _ _ b r)

/-- THE HALF'S OUTPUT BLOCK, written by the half's last point: the nearest-neighbour distances into that half. -/
theorem half_out (t : Fin cfg0.N) (ht : t.val % 8 = 7) (b : Fin 4) (j : Fin 8192) :
    ((outsAt0 m c t.val t.isLt).2.1 : FVec Ideal S1x4x8192 .f32) (ix3 (0 : Fin 1) b j)
      = nearYHalf (Parr m c) (Tarr m c) (ix3 (halfOf t) b j) := by
  have hN : cfg0.N = 16 := N_0
  have h0 : ¬t.val % 8 = 0 := by omega
  -- the block holds the carried column minima after this point
  have e : ((outsAt0 m c t.val t.isLt).2.1 : FVec Ideal S1x4x8192 .f32) (ix3 (0 : Fin 1) b j)
      = ((outsAt0 m c t.val t.isLt).2.2 : FVec Ideal S4x8192 .f32) (ix2 b j) := by
    rw [outsAt0_C m c t h0 ht]
    dsimp only
    rw [Cases.half_C, Cases.cols_C]
  rw [e]
  have hs := scratch_inv m c t.val t.isLt b j
  have hh := isMin_nearYHalf (Parr m c) (Tarr m c) (halfOf t) b j
  refine eq_of_forall_le_iff fun x => (hs x).trans (Iff.trans ?_ (hh x).symm)
  have hv : (halfOf t).val = t.val / 8 := rfl
  constructor
  · rintro ⟨hx, hp⟩
    refine ⟨hx, fun r => hp (halfRow (halfOf t) r) ?_⟩
    have := r.isLt
    show 4096 * (t.val / 8) ≤ 4096 * (halfOf t).val + r.val ∧ 4096 * (halfOf t).val + r.val < 512 * (t.val + 1)
    rw [hv]; omega
  · rintro ⟨hx, hr⟩
    refine ⟨hx, fun p hp => ?_⟩
    have hp' : p = halfRow (halfOf t) ⟨p.val - 4096 * (t.val / 8), by omega⟩ :=
      Fin.ext (by show p.val = 4096 * (halfOf t).val + (p.val - 4096 * (t.val / 8)); rw [hv]; omega)
    rw [hp']
    exact hr _

end Cert.KernelIdeal.KV

end
-- ==== Proof.Arrays.lean ====
/-
  The two arrays the kernel's grid leaves, from what each point writes back.

  The first output, of shape [4, 8192], is written back at every point `t`: columns `512 t … 512 t + 511`. The second, of
  shape [2, 4, 8192], is written back at the last point of each half of the grid: plane `h` at point `8 h + 7`. If what
  each point writes back is its block of the nearest-neighbour distances, the arrays end holding those distances.
-/
import proofs.«178793_j6528350290147_2_alg».proof.Proof.Grid
import Idealize.ShloMosaic.Lib.Pipeline.Value
import Idealize.ShloMosaic.Lib.ValueIdx

noncomputable section

namespace Cert.KernelIdeal.KV

open Cert.KernelIdeal Cert.KernelIdeal.Gen Idealize.ShloMosaic Idealize.ShloMosaic.ValueIdx Idealize.ShloMosaic.TcCoe Idealize.SL.Sem
open Idealize.ShloMosaic.Pipeline (Dat)

variable (m : (ℓ : Loc nD τ sig) → Buf (Elt Ideal) ℓ)

/-! ## The first output: one block of 512 columns per point -/

/-- The first output's block at point `t` is block 0 along the batch axis and block `t` along the point axis. -/
theorem idx2 : ∀ t : Fin cfg0.N, win0_2.index t (0 : Fin 2) = 0 ∧ win0_2.index t (1 : Fin 2) = t.val :=
  (by decide +kernel : ∀ t : Fin grid0.N, win0_2.index t (0 : Fin 2) = 0 ∧ win0_2.index t (1 : Fin 2) = t.val)

/-- What point `t` writes back to the first output is its block of the distances from the first cloud, provided the
    point's buffer holds them. -/
theorem flushed2_eq (c : Dev nD) (h : ∀ (t : Fin cfg0.N) (b : Fin 4) (r : Fin 512),
      ((outsAt0 m c t.val t.isLt).1 : FVec Ideal S4x512 .f32) (ix2 b r) = Chamfer.nearX (Parr m c) (Tarr m c) (ix2 b (tileRow t r)))
    (t : Fin cfg0.N) :
    (dats m 0 c).flushed 2 t = ((cfg0.win 2).blk t).view.read (Elt Ideal) (Chamfer.nearX (Parr m c) (Tarr m c)) := by
  obtain ⟨e0, e1⟩ := idx2 t
  show (cfg0.win 2).cut (grid0.coords t) ((dats m 0 c).after 2 t) = _
  rw [after0_2]
  funext (y : S4x512.Idx)
  obtain ⟨b, r, rfl⟩ : ∃ (b : Fin 4) (r : Fin 512), y = ix2 b r := ⟨y 0, y 1, eq_ix2 y⟩
  rw [View.read_apply]
  show ((outsAt0 m c t.val t.isLt).1 : FVec Ideal S4x512 .f32) (ix2 b r) = Chamfer.nearX (Parr m c) (Tarr m c) _
  refine (h t b r).trans ?_
  congr 1
  funext a
  apply Fin.ext
  match a with
  | ⟨0, _⟩ => show b.val = win0_2.index t (0 : Fin 2) * 4 + 1 * b.val; rw [e0]; omega
  | ⟨1, _⟩ => show 512 * t.val + r.val = win0_2.index t (1 : Fin 2) * 512 + 1 * r.val; rw [e1]; omega

/-- An index of the first output is in point `t`'s block when each coordinate is in the block's range on its axis. -/
theorem mem_blk2 (t : Fin cfg0.N) (i : S4x8192.Idx) :
    i ∈ ((cfg0.win 2).blk t).view.set ↔ ∀ a : Fin 2, win0_2.index t a * S4x512.size a ≤ (i a).val ∧ (i a).val < win0_2.index t a * S4x512.size a + S4x512.size a := by
  show i ∈ ((View.whole main_v1_0).slice (win0_2.rect t)).set ↔ _
  rw [View.set_slice_whole, Rect.mem_set_unit]
  exact Iff.rfl

/-- Column `n` of the first output is in the block of point `n / 512`. -/
theorem cover2 (i : S4x8192.Idx) : ∃ t : Fin cfg0.N, (cfg0.win 2).flush t = true ∧ i ∈ ((cfg0.win 2).blk t).view.set := by
  have hN : cfg0.N = 16 := N_0
  have hi0 : (i 0).val < 4 := (i 0).isLt
  have hi1 : (i 1).val < 8192 := (i 1).isLt
  have ht : (i 1).val / 512 < cfg0.N := by omega
  obtain ⟨e0, e1⟩ := idx2 ⟨(i 1).val / 512, ht⟩
  refine ⟨⟨(i 1).val / 512, ht⟩, flush0_2 _, ?_⟩
  rw [mem_blk2]
  intro a
  match a with
  | ⟨0, _⟩ =>
    show win0_2.index ⟨(i 1).val / 512, ht⟩ (0 : Fin 2) * 4 ≤ (i 0).val ∧ (i 0).val < win0_2.index ⟨(i 1).val / 512, ht⟩ (0 : Fin 2) * 4 + 4
    rw [e0]; omega
  | ⟨1, _⟩ =>
    show win0_2.index ⟨(i 1).val / 512, ht⟩ (1 : Fin 2) * 512 ≤ (i 1).val ∧ (i 1).val < win0_2.index ⟨(i 1).val / 512, ht⟩ (1 : Fin 2) * 512 + 512
    rw [e1]; dsimp only; omega

/-- The first output ends holding, for every point of the first cloud, its distance to the nearest point of the second,
    provided every grid point's buffer holds its 512 of them. -/
theorem final2 (c : Dev nD) (h : ∀ (t : Fin cfg0.N) (b : Fin 4) (r : Fin 512),
      ((outsAt0 m c t.val t.isLt).1 : FVec Ideal S4x512 .f32) (ix2 b r) = Chamfer.nearX (Parr m c) (Tarr m c) (ix2 b (tileRow t r))) :
    (dats m 0 c).arrAt 2 cfg0.N = Chamfer.nearX (Parr m c) (Tarr m c) :=
  (dats m 0 c).arrAt_eq_of_cover 2 (Chamfer.nearX (Parr m c) (Tarr m c)) (fun t _ => flushed2_eq m c h t) (cover2)

/-! ## The second output: one plane per half of the grid -/

/-- The second output's block at point `t` is plane `t / 8`, whole along the other two axes. -/
theorem idx3 : ∀ t : Fin cfg0.N, win0_3.index t (0 : Fin 3) = t.val / 8 ∧ win0_3.index t (1 : Fin 3) = 0 ∧ win0_3.index t (2 : Fin 3) = 0 :=
  (by decide +kernel : ∀ t : Fin grid0.N, win0_3.index t (0 : Fin 3) = t.val / 8 ∧ win0_3.index t (1 : Fin 3) = 0 ∧ win0_3.index t (2 : Fin 3) = 0)

/-- What the last point of a half writes back to the second output is that half's plane of the distances from the
    second cloud, provided the point's buffer holds them. -/
theorem flushed3_eq (c : Dev nD) (h : ∀ (t : Fin cfg0.N), t.val % 8 = 7 → ∀ (b : Fin 4) (j : Fin 8192),
      ((outsAt0 m c t.val t.isLt).2.1 : FVec Ideal S1x4x8192 .f32) (ix3 (0 : Fin 1) b j) = Chamfer.nearYHalf (Parr m c) (Tarr m c) (ix3 (halfOf t) b j))
    (t : Fin cfg0.N) (hf : (cfg0.win 3).flush t = true) :
    (dats m 0 c).flushed 3 t = ((cfg0.win 3).blk t).view.read (Elt Ideal) (Chamfer.nearYHalf (Parr m c) (Tarr m c)) := by
  have h7 : t.val % 8 = 7 := (flush0_3 t).mp hf
  obtain ⟨e0, e1, e2⟩ := idx3 t
  show (cfg0.win 3).cut (grid0.coords t) ((dats m 0 c).after 3 t) = _
  rw [after0_3]
  funext (y : S1x4x8192.Idx)
  obtain ⟨z, b, j, rfl⟩ : ∃ (z : Fin 1) (b : Fin 4) (j : Fin 8192), y = ix3 z b j := ⟨y 0, y 1, y 2, eq_ix3 y⟩
  obtain rfl : z = 0 := Subsingleton.elim _ _
  rw [View.read_apply]
  show ((outsAt0 m c t.val t.isLt).2.1 : FVec Ideal S1x4x8192 .f32) (ix3 (0 : Fin 1) b j) = Chamfer.nearYHalf (Parr m c) (Tarr m c) _
  refine (h t h7 b j).trans ?_
  congr 1
  funext a
  apply Fin.ext
  match a with
  | ⟨0, _⟩ => show t.val / 8 = win0_3.index t (0 : Fin 3) * 1 + 1 * 0; rw [e0]; omega
  | ⟨1, _⟩ => show b.val = win0_3.index t (1 : Fin 3) * 4 + 1 * b.val; rw [e1]; omega
  | ⟨2, _⟩ => show j.val = win0_3.index t (2 : Fin 3) * 8192 + 1 * j.val; rw [e2]; omega

/-- An index of the second output is in point `t`'s block when each coordinate is in the block's range on its axis. -/
theorem mem_blk3 (t : Fin cfg0.N) (i : S2x4x8192.Idx) :
    i ∈ ((cfg0.win 3).blk t).view.set ↔ ∀ a : Fin 3, win0_3.index t a * S1x4x8192.size a ≤ (i a).val ∧ (i a).val < win0_3.index t a * S1x4x8192.size a + S1x4x8192.size a := by
  show i ∈ ((View.whole main_v1_1).slice (win0_3.rect t)).set ↔ _
  rw [View.set_slice_whole, Rect.mem_set_unit]
  exact Iff.rfl

/-- Plane `h` of the second output is the block of point `8 h + 7`, which is written back. -/
theorem cover3 (i : S2x4x8192.Idx) : ∃ t : Fin cfg0.N, (cfg0.win 3).flush t = true ∧ i ∈ ((cfg0.win 3).blk t).view.set := by
  have hN : cfg0.N = 16 := N_0
  have hi0 : (i 0).val < 2 := (i 0).isLt
  have hi1 : (i 1).val < 4 := (i 1).isLt
  have hi2 : (i 2).val < 8192 := (i 2).isLt
  have ht : 8 * (i 0).val + 7 < cfg0.N := by omega
  obtain ⟨e0, e1, e2⟩ := idx3 ⟨8 * (i 0).val + 7, ht⟩
  refine ⟨⟨8 * (i 0).val + 7, ht⟩, (flush0_3 _).mpr (by dsimp only; omega), ?_⟩
  rw [mem_blk3]
  intro a
  match a with
  | ⟨0, _⟩ =>
    show win0_3.index ⟨8 * (i 0).val + 7, ht⟩ (0 : Fin 3) * 1 ≤ (i 0).val ∧ (i 0).val < win0_3.index ⟨8 * (i 0).val + 7, ht⟩ (0 : Fin 3) * 1 + 1
    rw [e0]; dsimp only; omega
  | ⟨1, _⟩ =>
    show win0_3.index ⟨8 * (i 0).val + 7, ht⟩ (1 : Fin 3) * 4 ≤ (i 1).val ∧ (i 1).val < win0_3.index ⟨8 * (i 0).val + 7, ht⟩ (1 : Fin 3) * 4 + 4
    rw [e1]; omega
  | ⟨2, _⟩ =>
    show win0_3.index ⟨8 * (i 0).val + 7, ht⟩ (2 : Fin 3) * 8192 ≤ (i 2).val ∧ (i 2).val < win0_3.index ⟨8 * (i 0).val + 7, ht⟩ (2 : Fin 3) * 8192 + 8192
    rw [e2]; omega

/-- The second output ends holding, for each half of the first cloud and every point of the second, the distance to the
    nearest point of that half, provided the last grid point of each half holds them. -/
theorem final3 (c : Dev nD) (h : ∀ (t : Fin cfg0.N), t.val % 8 = 7 → ∀ (b : Fin 4) (j : Fin 8192),
      ((outsAt0 m c t.val t.isLt).2.1 : FVec Ideal S1x4x8192 .f32) (ix3 (0 : Fin 1) b j) = Chamfer.nearYHalf (Parr m c) (Tarr m c) (ix3 (halfOf t) b j)) :
    (dats m 0 c).arrAt 3 cfg0.N = Chamfer.nearYHalf (Parr m c) (Tarr m c) :=
  (dats m 0 c).arrAt_eq_of_cover 3 (Chamfer.nearYHalf (Parr m c) (Tarr m c)) (fun t hf => flushed3_eq m c h t hf) (cover3)

end Cert.KernelIdeal.KV

end
-- ==== Proof.KernelRun.lean ====
/-
  The kernel's run, read: its result is one function of the two arrays its grid leaves, and that function of the
  nearest-neighbour distances is the reference's averaging of its own two arrays of minima.

  After the grid the program takes the minimum of the two planes of the second output (each the distance to the nearest
  point of one half of the first cloud, so their minimum is the distance to the nearest point of the whole cloud),
  averages each array over its points and over the batch, adds the two averages and multiplies by the value of the word
  for 1.
-/
import proofs.«178793_j6528350290147_2_alg».proof.Proof.Arrays
import proofs.«178793_j6528350290147_2_alg».proof.Proof.RefRead
import Idealize.ShloMosaic.Lib.Pipeline.Value
import Idealize.ShloMosaic.Lib.ValueIdx
import Idealize.ShloMosaic.Lib.StableHlo.Run
import Idealize.ShloMosaic.PureOps.Ideal.Laws
import Idealize.ShloMosaic.PureOps.Reduce

noncomputable section

namespace Cert.KernelIdeal.KV

open Cert.KernelIdeal Cert.KernelIdeal.Gen Idealize.ShloMosaic Idealize.ShloMosaic.ValueIdx Idealize.ShloMosaic.TcCoe Idealize.SL.Sem
open Idealize.ShloMosaic.Pipeline (Dat)

/-! ## The operations after the grid, as one function -/

/-- For `cx` of shape [4, 8192] and `cyh` of shape [2, 4, 8192]: take the minimum of the two planes of `cyh` (from the
    value of the word 0x7F800000); sum `cx` and that minimum each over the point axis and divide by the value of the word
    for 8192, sum the four quotients and divide by the value of the word for 4; add the two results and multiply by the
    value of the word for 1. -/
def tailK (cx : FVec Ideal S4x8192 .f32) (cyh : FVec Ideal S2x4x8192 .f32) : FVec Ideal S_ .f32 :=
  mulf (constant (F := Ideal) S_ .f32 0x3F800000#32)
    (addf
      (Host.divf
        (Host.reduceAdd
          (Host.divf (Host.reduceAdd cx (constant (F := Ideal) S_ .f32 0x00000000#32) reducesTo_S4x8192_S4_d1 h_S_)
            (broadcastInDim S4 ![] bcast_S_S4 (constant (F := Ideal) S_ .f32 0x46000000#32)))
          (constant (F := Ideal) S_ .f32 0x00000000#32) reducesTo_S4_S_d0 h_S_)
        (constant (F := Ideal) S_ .f32 0x40800000#32))
      (Host.divf
        (Host.reduceAdd
          (Host.divf
            (Host.reduceAdd
              (Host.reduce FloatOps.minimumf cyh (constant (F := Ideal) S_ .f32 0x7F800000#32) reducesTo_S2x4x8192_S4x8192_d0 h_S_)
              (constant (F := Ideal) S_ .f32 0x00000000#32) reducesTo_S4x8192_S4_d1 h_S_)
            (broadcastInDim S4 ![] bcast_S_S4 (constant (F := Ideal) S_ .f32 0x46000000#32)))
          (constant (F := Ideal) S_ .f32 0x00000000#32) reducesTo_S4_S_d0 h_S_)
        (constant (F := Ideal) S_ .f32 0x40800000#32)))

section Run

variable (m : (ℓ : Loc nD τ sig) → Buf (Elt Ideal) ℓ)

/-- What the program's last buffer holds after the operations that follow the grid, when the grid left `X` in the first
    output and `Y` in the second: that function of `X` and `Y`. -/
theorem tail_value (c : Dev nD) (X : FVec Ideal S4x8192 .f32) (Y : FVec Ideal S2x4x8192 .f32)
    (hX : (dats m 0 c).arrAt 2 cfg0.N = X) (hY : (dats m 0 c).arrAt 3 cfg0.N = Y) :
    Pipeline.afterTail₀ cfgs (dats m) 0 (V0 m) [hostOps1] c main_v14 = tailK X Y := by
  unfold Pipeline.afterTail₀
  show StableHlo.after hostOps1 _ (Proc.devRef .tc main_v14) = _
  after_results
  rw [Pipeline.withArrays_arr spec0 launch0.win.arr_inj c _ _ 2, Pipeline.withArrays_arr spec0 launch0.win.arr_inj c _ _ 3, hX, hY]
  rfl

/-- Every execution of the program ends with its result at that function of the nearest-neighbour distances and its two
    arguments unchanged, provided the grid leaves those distances in its two outputs. -/
theorem run (ρ : Dev nD → PrngReg)
    (hX : ∀ c, (dats m 0 c).arrAt 2 cfg0.N = Chamfer.nearX (Parr m c) (Tarr m c))
    (hY : ∀ c, (dats m 0 c).arrAt 3 cfg0.N = Chamfer.nearYHalf (Parr m c) (Tarr m c)) :
    θ_run defs (onTc (τ := τ) (main (F := Ideal))) ⟨m, fun _ => 0, ρ⟩ (fun r => ∀ c : Dev nD,
      r.2.mem ((c.tc : Thread nD τ).loc main_v14) = tailK (Chamfer.nearX (Parr m c) (Tarr m c)) (Chamfer.nearYHalf (Parr m c) (Tarr m c))
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c =>
    ⟨((h c).2 main_v14 (Pipeline.mem_restRefs_of main_v14 (by decide) (by decide))).trans
        (tail_value m c _ _ (hX c) (hY c)),
      ((h c).1 0).trans (((dats m 0 c).arrAt_in 0 rfl _).trans ((A_eq m c 0).trans (V_main_arg0 m c))),
      ((h c).2 main_arg1 (Pipeline.mem_restRefs_of main_arg1 (by decide) (by decide))).trans (W_main_arg1 m (dats m) c)⟩)
    (run_main m ρ)

end Run

/-! ## The same function as the reference's -/

/-- The kernel's function of its two arrays is the reference's averaging of the first array and of the minimum of the
    second array's two planes: the same operations on the same shapes. -/
theorem tailK_eq_tail (cx : FVec Ideal S4x8192 .f32) (cyh : FVec Ideal S2x4x8192 .f32) :
    tailK cx cyh = Cert.ReferenceIdeal.RefValue.tail cx
      (Host.reduce FloatOps.minimumf cyh (constant (F := Ideal) S_ .f32 0x7F800000#32) reducesTo_S2x4x8192_S4x8192_d0 h_S_) := by
  unfold tailK Cert.ReferenceIdeal.RefValue.tail
  rfl

/-- The distance to the nearest point of the second cloud, as one fold, is the reference's first array of minima. -/
theorem nearX_eq [Cert.ReferenceIdeal.Facts] (P T : Chamfer.Pts) :
    Chamfer.nearX P T = Cert.ReferenceIdeal.Read.val_main_v15 (F := Ideal) P T := by
  funext j
  rw [eq_ix2 j]
  exact (Chamfer.isMin_nearX P T (j 0) (j 1)).unique (Cert.ReferenceIdeal.RefValue.chamx_isMin P T (j 0) (j 1))

/-- A minimum of a family re-indexed along `φ` is the minimum of the family over the image of `φ`. -/
theorem isMinOn_of_isMin_comp {ι κ : Type} (f : ι → EReal) (φ : κ → ι) {v : EReal}
    (h : Chamfer.IsMin (fun j => f (φ j)) v) : Chamfer.IsMinOn (fun i => ∃ j, φ j = i) f v := fun c =>
  (h c).trans ⟨fun hh => ⟨hh.1, fun i hi => by obtain ⟨j, rfl⟩ := hi; exact hh.2 j⟩, fun hh => ⟨hh.1, fun j => hh.2 (φ j) ⟨j, rfl⟩⟩⟩

/-- Every point of the first cloud is a row of one of its two halves. -/
theorem exists_halfRow (n : Fin 8192) : ∃ (h : Fin 2) (r : Fin 4096), Chamfer.halfRow h r = n :=
  ⟨⟨n.val / 4096, by have := n.isLt; omega⟩, ⟨n.val % 4096, by omega⟩, Fin.ext (by
    show 4096 * (n.val / 4096) + n.val % 4096 = n.val
    omega)⟩

/-- The minimum of the two planes — each the distance to the nearest point of one half of the first cloud — is the
    distance to the nearest point of the whole cloud: the reference's second array of minima. -/
theorem minHalves_eq [Cert.ReferenceIdeal.Facts] (P T : Chamfer.Pts) :
    Host.reduce FloatOps.minimumf (Chamfer.nearYHalf P T) (constant (F := Ideal) S_ .f32 0x7F800000#32) reducesTo_S2x4x8192_S4x8192_d0 h_S_
      = Cert.ReferenceIdeal.Read.val_main_v16 (F := Ideal) P T := by
  funext j
  obtain ⟨b, k, rfl⟩ : ∃ (b : Fin 4) (k : Fin 8192), j = ix2 b k := ⟨j 0, j 1, eq_ix2 j⟩
  have hred : S2x4x8192.Reduces [0] S4x8192 := by decide
  have hfam : (Chamfer.nearYHalf P T ∘ hred.lift (ix2 b k)) = fun h : Fin 2 => Chamfer.nearYHalf P T (ix3 h b k) := by
    funext (h : Fin 2)
    have e : hred.lift (ix2 b k) h = ix3 h b k :=
      funext fun a => Fin.ext (by match a with | ⟨0, _⟩ => rfl | ⟨1, _⟩ => rfl | ⟨2, _⟩ => rfl)
    show Chamfer.nearYHalf P T (hred.lift (ix2 b k) h) = _
    rw [e]
  have hinit : constant (F := Ideal) S_ .f32 0x7F800000#32 (Shape.Idx.first h_S_) = Chamfer.top32 := rfl
  rw [Host.reduce_eq_fold_single FloatOps.minimumf _ _ reducesTo_S2x4x8192_S4x8192_d0 hred h_S_ (ix2 b k), hfam, hinit]
  have hparts : Chamfer.IsMinOn (fun n : Fin 8192 => ∃ h : Fin 2, ∃ r : Fin 4096, Chamfer.halfRow h r = n)
      (fun n : Fin 8192 => Chamfer.d2 P T b n k)
      (Finset.univ.fold Min.min Chamfer.top32 fun h : Fin 2 => Chamfer.nearYHalf P T (ix3 h b k)) :=
    Chamfer.isMinOn_fold_of (fun n : Fin 8192 => Chamfer.d2 P T b n k) (fun h : Fin 2 => Chamfer.nearYHalf P T (ix3 h b k))
      (fun h n => ∃ r : Fin 4096, Chamfer.halfRow h r = n)
      (fun h => isMinOn_of_isMin_comp (fun n : Fin 8192 => Chamfer.d2 P T b n k) (Chamfer.halfRow h) (Chamfer.isMin_nearYHalf P T h b k))
  have hall : Chamfer.IsMin (fun n : Fin 8192 => Chamfer.d2 P T b n k)
      (Finset.univ.fold Min.min Chamfer.top32 fun h : Fin 2 => Chamfer.nearYHalf P T (ix3 h b k)) :=
    (hparts.congr fun n => ⟨fun _ => trivial, fun _ => exists_halfRow n⟩).toIsMin
  exact hall.unique (Cert.ReferenceIdeal.RefValue.chamy_isMin P T b k)

/-- The kernel's function of the nearest-neighbour distances is the reference's averaging of its two arrays of minima. -/
theorem tail_agree [Cert.ReferenceIdeal.Facts] (P T : Chamfer.Pts) :
    tailK (Chamfer.nearX P T) (Chamfer.nearYHalf P T)
      = Cert.ReferenceIdeal.RefValue.tail (Cert.ReferenceIdeal.Read.val_main_v15 (F := Ideal) P T) (Cert.ReferenceIdeal.Read.val_main_v16 (F := Ideal) P T) := by
  rw [tailK_eq_tail, nearX_eq, minHalves_eq]

end Cert.KernelIdeal.KV

end
-- ==== Proof.lean ====
/-
  The Chamfer loss, tiled against plain: the certificate's five claims.

  Both programs compute, for two clouds `P`, `T` of 8192 points in each of 4 batches, the table
      d2[b, n, m] = max ((|P[b,n]|² + |T[b,m]|²) − 2 · ⟨P[b,n], T[b,m]⟩) 0,
  its minima over `m` and over `n` (each started from the word 0x7F800000), and the same two means of those minima,
  added and multiplied by 1.0. The reference takes each minimum in one sweep over the 4·8192·8192 table. The kernel never
  forms the table: sixteen grid points each hold 512 rows `n`, walk the 8192 columns `m` in sixteen chunks of 512, and
  keep running minima — the row minima per point, the column minima carried across the eight points of a half and
  written out at the half's end, the two halves joined by one more minimum on the host.

  On the extended reals a minimum is determined by its lower bounds, so the order and the grouping in which the
  entries are visited do not matter, nor does the starting word being met several times; and the kernel's inner
  product, three products added left to right, is the sum over the coordinate. Neither step needs the entries to be
  finite, so the precondition is not used. The three frames are the generated ones (the reference's is its generated
  run with the result dropped), and the idealization rewrote nothing.
-/
import proofs.«178793_j6528350290147_2_alg».proof.Defs
import proofs.«178793_j6528350290147_2_alg».proof.Proof.Gen.Kernel
import proofs.«178793_j6528350290147_2_alg».proof.Proof.Gen.Kernel.Frame
import proofs.«178793_j6528350290147_2_alg».proof.Proof.Gen.KernelIdeal
import proofs.«178793_j6528350290147_2_alg».proof.Proof.Gen.KernelIdeal.Frame
import proofs.«178793_j6528350290147_2_alg».proof.Proof.Gen.ReferenceIdeal
import proofs.«178793_j6528350290147_2_alg».proof.Proof.Gen.ReferenceIdeal.Run
import proofs.«178793_j6528350290147_2_alg».proof.Proof.Gen.ReferenceIdeal.Read
import proofs.«178793_j6528350290147_2_alg».proof.Proof.Gen.Pre_finite_inputs
import proofs.«178793_j6528350290147_2_alg».proof.Proof.RefRead
import proofs.«178793_j6528350290147_2_alg».proof.Proof.Points
import proofs.«178793_j6528350290147_2_alg».proof.Proof.Arrays
import proofs.«178793_j6528350290147_2_alg».proof.Proof.KernelRun
import Idealize.ShloMosaic.Adequacy
import Idealize.ShloMosaic.Init

noncomputable section

namespace Cert.Proof

open Idealize.ShloMosaic Idealize.SL.Sem

/-- The word-level kernel runs and keeps its arguments: the generated frame. -/
theorem frame_kernel : Cert.frame_Kernel := fun m ρ _ => Cert.Kernel.Gen.frame m ρ

/-- So does the kernel read at the ideal values. -/
theorem frame_kernelIdeal : Cert.frame_KernelIdeal := fun m ρ _ => Cert.KernelIdeal.Gen.frame m ρ

/-- The reference's frame is its run with the result dropped. -/
theorem frame_reference : Cert.frame_ReferenceIdeal := fun m ρ _ =>
  (θ_run Cert.ReferenceIdeal.defs _ _).mono (fun _ h c => (h c).2) (Cert.ReferenceIdeal.Value.run (F := Ideal) m ρ)

/-- At the ideal values both programs end at the same number: the kernel's result array holds the shared tail of means
    applied to the two nearest-neighbour arrays (its run, read off the grid point by point), and the reference's result
    is the same tail applied to its two one-sweep minima, which are those arrays. -/
theorem algebraic : Cert.algebraic_KernelIdeal_ReferenceIdeal := by
  intro m ρ m' ρ' _ hagree
  refine ⟨fun c => Cert.KernelIdeal.KV.tailK
      (Chamfer.nearX (Cert.KernelIdeal.KV.Parr m c) (Cert.KernelIdeal.KV.Tarr m c))
      (Chamfer.nearYHalf (Cert.KernelIdeal.KV.Parr m c) (Cert.KernelIdeal.KV.Tarr m c)),
    Cert.KernelIdeal.KV.run m ρ
      (fun c => Cert.KernelIdeal.KV.final2 m c (Cert.KernelIdeal.KV.rows_out m c))
      (fun c => Cert.KernelIdeal.KV.final3 m c (Cert.KernelIdeal.KV.half_out m c)), ?_⟩
  refine (θ_run Cert.ReferenceIdeal.defs _ _).mono (fun _ h c => ⟨(h c).1.trans ?_, (h c).2⟩)
    (Cert.ReferenceIdeal.Value.run (F := Ideal) m' ρ')
  rw [(hagree c).1, (hagree c).2, Cert.ReferenceIdeal.Read.val_main_v28_eq, Cert.ReferenceIdeal.RefValue.result_eq_tail]
  exact (Cert.KernelIdeal.KV.tail_agree _ _).symm

theorem claim : Cert.Claim := ⟨Cert.Kernel.Gen.facts, Cert.KernelIdeal.Gen.facts, Cert.ReferenceIdeal.Gen.facts, Cert.Pre_finite_inputs.Gen.facts,
  frame_kernel, frame_kernelIdeal, frame_reference, trivial, algebraic⟩

end Cert.Proof

end
